-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048x128 : Shape := ⟨3, ![256, 2048, 128]⟩
abbrev S_ : Shape := ⟨0, ![]⟩

class Facts : Prop where
  bcast_S_S256x2048x128 : S_.BroadcastsInDim S256x2048x128 (![] : Fin 0 → Fin S256x2048x128.rank)
  reducesTo_S256x2048x128_S_d0_1_2 : S256x2048x128.ReducesTo [0, 1, 2] S_
  h_S_ : 0 < S_.numel

variable [Facts]

def fn {F : FTy → Type} [FloatOps F] (main_arg0 : FVec F S256x2048x128 .f32) (main_arg1 : FVec F S256x2048x128 .f32) : IVec S_ 1 :=
  let main_v0 : FVec F S256x2048x128 .f32 := Host.absf main_arg0
  let main_cst : FVec F S_ .f32 := constant S_ .f32 0x7F800000#32
  let main_v1 : FVec F S256x2048x128 .f32 := broadcastInDim S256x2048x128 ![] bcast_S_S256x2048x128 main_cst
  let main_v2 : IVec S256x2048x128 1 := cmpf .olt main_v0 main_v1
  let main_c : IVec S_ 1 := constantI S_ 1 1#1
  let main_v3 : IVec S_ 1 := (fun x v => Host.reduce IntOp.andi x v reducesTo_S256x2048x128_S_d0_1_2 h_S_) main_v2 main_c
  let main_v4 : FVec F S256x2048x128 .f32 := Host.absf main_arg1
  let main_cst_0 : FVec F S_ .f32 := constant S_ .f32 0x7F800000#32
  let main_v5 : FVec F S256x2048x128 .f32 := broadcastInDim S256x2048x128 ![] bcast_S_S256x2048x128 main_cst_0
  let main_v6 : IVec S256x2048x128 1 := cmpf .olt main_v4 main_v5
  let main_c_1 : IVec S_ 1 := constantI S_ 1 1#1
  let main_v7 : IVec S_ 1 := (fun x v => Host.reduce IntOp.andi x v reducesTo_S256x2048x128_S_d0_1_2 h_S_) main_v6 main_c_1
  let main_v8 : IVec S_ 1 := andi main_v3 main_v7
  main_v8
-- ==== Kernel.lean ====
abbrev S256x2048x128 : Shape := ⟨3, ![256, 2048, 128]⟩
abbrev S256x128 : Shape := ⟨2, ![256, 128]⟩
abbrev S8x2048x128 : Shape := ⟨3, ![8, 2048, 128]⟩
abbrev S8x128 : Shape := ⟨2, ![8, 128]⟩
abbrev S8x256x128 : Shape := ⟨3, ![8, 256, 128]⟩
abbrev S1x1 : Shape := ⟨2, ![1, 1]⟩
abbrev S256 : Shape := ⟨1, ![256]⟩
abbrev S256x1 : Shape := ⟨2, ![256, 1]⟩
abbrev S128x256 : Shape := ⟨2, ![128, 256]⟩
abbrev S256x256 : Shape := ⟨2, ![256, 256]⟩
abbrev S1x256 : Shape := ⟨2, ![1, 256]⟩
abbrev S1 : Shape := ⟨1, ![1]⟩
abbrev S_ : Shape := ⟨0, ![]⟩

abbrev nBuf : Space → Nat
  | .hbm => 6
  | .vmem => 11
  | .smem => 0
  | _ => 0

abbrev bufTy : (tb : Table) → Fin (tcTables nBuf tb) → BufTy
  | .hbm, ⟨0, _⟩ => ⟨S256x2048x128, .f32⟩
  | .hbm, ⟨1, _⟩ => ⟨S256x2048x128, .f32⟩
  | .hbm, ⟨2, _⟩ => ⟨S256x128, .f32⟩
  | .hbm, ⟨3, _⟩ => ⟨S256x128, .f32⟩
  | .hbm, ⟨4, _⟩ => ⟨S1x1, .f32⟩
  | .hbm, ⟨5, _⟩ => ⟨S_, .f32⟩
  | .local _ .vmem, ⟨0, _⟩ => ⟨S8x2048x128, .f32⟩
  | .local _ .vmem, ⟨1, _⟩ => ⟨S8x2048x128, .f32⟩
  | .local _ .vmem, ⟨2, _⟩ => ⟨S8x2048x128, .f32⟩
  | .local _ .vmem, ⟨3, _⟩ => ⟨S8x2048x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S256x128, .f32⟩
  | .local _ .vmem, ⟨9, _⟩ => ⟨S256x128, .f32⟩
  | .local _ .vmem, ⟨10, _⟩ => ⟨S1x1, .f32⟩
  | _, _ => ⟨S256x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c256_i32 : BitVec 32 := 256#32
  let v1 : BitVec 32 := Scalar.muli c0_i32 c256_i32
  v1
def k0_off1 (c0_i32 : BitVec 32) : Fin 3 → Nat :=
  let c0 : Index := 0#32
  let c256_i32 : BitVec 32 := 256#32
  let v1 : BitVec 32 := Scalar.muli c0_i32 c256_i32
  let v2 : BitVec 32 := v1
  let v3 : Index := Scalar.indexCast v2
  let c0_0 : Index := 0#32
  ![0, v3.toNat, 0]
def k0_mult2 : BitVec 32 :=
  let c1_i32 : BitVec 32 := 1#32
  let c256_i32_2 : BitVec 32 := 256#32
  let v7 : BitVec 32 := Scalar.muli c1_i32 c256_i32_2
  v7
def k0_mult3 : BitVec 32 :=
  let c2_i32 : BitVec 32 := 2#32
  let c256_i32_6 : BitVec 32 := 256#32
  let v13 : BitVec 32 := Scalar.muli c2_i32 c256_i32_6
  v13
def k0_mult4 : BitVec 32 :=
  let c3_i32 : BitVec 32 := 3#32
  let c256_i32_10 : BitVec 32 := 256#32
  let v19 : BitVec 32 := Scalar.muli c3_i32 c256_i32_10
  v19
def k0_mult5 : BitVec 32 :=
  let c4_i32 : BitVec 32 := 4#32
  let c256_i32_14 : BitVec 32 := 256#32
  let v25 : BitVec 32 := Scalar.muli c4_i32 c256_i32_14
  v25
def k0_mult6 : BitVec 32 :=
  let c5_i32 : BitVec 32 := 5#32
  let c256_i32_18 : BitVec 32 := 256#32
  let v31 : BitVec 32 := Scalar.muli c5_i32 c256_i32_18
  v31
def k0_mult7 : BitVec 32 :=
  let c6_i32 : BitVec 32 := 6#32
  let c256_i32_22 : BitVec 32 := 256#32
  let v37 : BitVec 32 := Scalar.muli c6_i32 c256_i32_22
  v37
def k0_mult8 : BitVec 32 :=
  let c7_i32 : BitVec 32 := 7#32
  let c256_i32_26 : BitVec 32 := 256#32
  let v43 : BitVec 32 := Scalar.muli c7_i32 c256_i32_26
  v43
def k0_mult9 : BitVec 32 :=
  let c0_i32_34 : BitVec 32 := 0#32
  let c256_i32_35 : BitVec 32 := 256#32
  let v53 : BitVec 32 := Scalar.muli c0_i32_34 c256_i32_35
  v53
def k0_mult10 : BitVec 32 :=
  let c1_i32_39 : BitVec 32 := 1#32
  let c256_i32_40 : BitVec 32 := 256#32
  let v59 : BitVec 32 := Scalar.muli c1_i32_39 c256_i32_40
  v59
def k0_mult11 : BitVec 32 :=
  let c2_i32_44 : BitVec 32 := 2#32
  let c256_i32_45 : BitVec 32 := 256#32
  let v65 : BitVec 32 := Scalar.muli c2_i32_44 c256_i32_45
  v65
def k0_mult12 : BitVec 32 :=
  let c3_i32_49 : BitVec 32 := 3#32
  let c256_i32_50 : BitVec 32 := 256#32
  let v71 : BitVec 32 := Scalar.muli c3_i32_49 c256_i32_50
  v71
def k0_mult13 : BitVec 32 :=
  let c4_i32_54 : BitVec 32 := 4#32
  let c256_i32_55 : BitVec 32 := 256#32
  let v77 : BitVec 32 := Scalar.muli c4_i32_54 c256_i32_55
  v77
def k0_mult14 : BitVec 32 :=
  let c5_i32_59 : BitVec 32 := 5#32
  let c256_i32_60 : BitVec 32 := 256#32
  let v83 : BitVec 32 := Scalar.muli c5_i32_59 c256_i32_60
  v83
def k0_mult15 : BitVec 32 :=
  let c6_i32_64 : BitVec 32 := 6#32
  let c256_i32_65 : BitVec 32 := 256#32
  let v89 : BitVec 32 := Scalar.muli c6_i32_64 c256_i32_65
  v89
def k0_mult16 : BitVec 32 :=
  let c7_i32_69 : BitVec 32 := 7#32
  let c256_i32_70 : BitVec 32 := 256#32
  let v95 : BitVec 32 := Scalar.muli c7_i32_69 c256_i32_70
  v95
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  h_S8x256x128 : 0 < S8x256x128.numel
  reduces_S8x256x128_S8x128 : S8x256x128.Reduces [1] S8x128
  inb_S8x128_S8x128_0_0 : ∀ a, (![0, 0] : Fin 2 → Nat) a + S8x128.size a ≤ S8x128.size a
  h_S8x128 : 0 < S8x128.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  reduces_S256x128_S256 : S256x128.Reduces [1] S256
  shapeCasts_S256_S256x1 : S256.ShapeCasts S256x1
  transposes_S256x128_p1_0_S128x256 : S256x128.Transposes [1, 0] S128x256
  transposes_S256x1_p1_0_S1x256 : S256x1.Transposes [1, 0] S1x256
  broadcasts_S256x1_S256x256 : S256x1.Broadcasts S256x256
  broadcasts_S1x256_S256x256 : S1x256.Broadcasts S256x256
  reduces_S256x256_S256 : S256x256.Reduces [1] S256
  reduces_S256x1_S1 : S256x1.Reduces [0] S1
  shapeCasts_S1_S1x1 : S1.ShapeCasts S1x1
  iota_S256x256_d0_w32 : S256x256.Iotas .tc 32 [0]
  iota_S256x256_d1_w32 : S256x256.Iotas .tc 32 [1]
  inb_S1x1_S1x1_0_0 : ∀ a, (![0, 0] : Fin 2 → Nat) a + S1x1.size a ≤ S1x1.size a
  h_S1x1 : 0 < S1x1.numel
  shapeCasts_S1x1_S_ : S1x1.ShapeCasts S_
  dot_S256x128_S128x256_S256x256_1_0_0_1_n_n_wf : DotDims.WF S256x128 S128x256 S256x256 [1] [0] [0] [1] [] []
  hrank0 : 0 < grid0.rank
  k0_mult1_dvd : 256 ∣ k0_mult1.toNat
  k0_off1_inb : ∀ (r : Fin 8), ∀ a, (k0_off1 (BitVec.ofNat 32 r.val)) a + S8x256x128.size a ≤ S8x2048x128.size a
  k0_mult2_dvd : 256 ∣ k0_mult2.toNat
  k0_mult3_dvd : 256 ∣ k0_mult3.toNat
  k0_mult4_dvd : 256 ∣ k0_mult4.toNat
  k0_mult5_dvd : 256 ∣ k0_mult5.toNat
  k0_mult6_dvd : 256 ∣ k0_mult6.toNat
  k0_mult7_dvd : 256 ∣ k0_mult7.toNat
  k0_mult8_dvd : 256 ∣ k0_mult8.toNat
  k0_mult9_dvd : 256 ∣ k0_mult9.toNat
  k0_mult10_dvd : 256 ∣ k0_mult10.toNat
  k0_mult11_dvd : 256 ∣ k0_mult11.toNat
  k0_mult12_dvd : 256 ∣ k0_mult12.toNat
  k0_mult13_dvd : 256 ∣ k0_mult13.toNat
  k0_mult14_dvd : 256 ∣ k0_mult14.toNat
  k0_mult15_dvd : 256 ∣ k0_mult15.toNat
  k0_mult16_dvd : 256 ∣ k0_mult16.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x128.size a ≤ S256x2048x128.size a
  hwx0_0 : ∀ i : grid0.Coords, EltTy.bits .f32 = 32 ∨ (Rect.block (s := S256x2048x128) S8x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048x128.size a ≤ S256x2048x128.size a
  hwx0_1 : ∀ i : grid0.Coords, EltTy.bits .f32 = 32 ∨ (Rect.block (s := S256x2048x128) S8x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S256x128.size a
  hwx0_2 : ∀ i : grid0.Coords, EltTy.bits .f32 = 32 ∨ (Rect.block (s := S256x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S256x128.size a
  hwx0_3 : ∀ i : grid0.Coords, EltTy.bits .f32 = 32 ∨ (Rect.block (s := S256x128) S8x128.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S256x128.size a
  hwx1_0 : ∀ i : grid1.Coords, EltTy.bits .f32 = 32 ∨ (Rect.block (s := S256x128) S256x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf

abbrev win0_0 : Pipeline.Window sig grid0 :=
  Pipeline.Window.ofSpec (Memref.whole main_arg0) S8x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S256x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S256x2048x128 : Shape := ⟨3, ![256, 2048, 128]⟩
abbrev S_ : Shape := ⟨0, ![]⟩
abbrev S256x128 : Shape := ⟨2, ![256, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S128x256 : Shape := ⟨2, ![128, 256]⟩

abbrev nBuf : Space → Nat
  | .hbm => 121
  | .vmem => 0
  | .smem => 0
  | _ => 0

abbrev bufTy : (tb : Table) → Fin (tcTables nBuf tb) → BufTy
  | .hbm, ⟨0, _⟩ => ⟨S256x2048x128, .f32⟩
  | .hbm, ⟨1, _⟩ => ⟨S256x2048x128, .f32⟩
  | .hbm, ⟨2, _⟩ => ⟨S_, .f32⟩
  | .hbm, ⟨3, _⟩ => ⟨S256x128, .f32⟩
  | .hbm, ⟨4, _⟩ => ⟨S_, .f32⟩
  | .hbm, ⟨5, _⟩ => ⟨S256x128, .f32⟩
  | .hbm, ⟨6, _⟩ => ⟨S256x128, .f32⟩
  | .hbm, ⟨7, _⟩ => ⟨S_, .f32⟩
  | .hbm, ⟨8, _⟩ => ⟨S256x128, .f32⟩
  | .hbm, ⟨9, _⟩ => ⟨S_, .f32⟩
  | .hbm, ⟨10, _⟩ => ⟨S256x128, .f32⟩
  | .hbm, ⟨11, _⟩ => ⟨S256x128, .f32⟩
  | .hbm, ⟨12, _⟩ => ⟨S256x128, .f32⟩
  | .hbm, ⟨13, _⟩ => ⟨S_, .f32⟩
  | .hbm, ⟨14, _⟩ => ⟨S256, .f32⟩
  | .hbm, ⟨15, _⟩ => ⟨S256x1, .f32⟩
  | .hbm, ⟨16, _⟩ => ⟨S256x128, .f32⟩
  | .hbm, ⟨17, _⟩ => ⟨S_, .f32⟩
  | .hbm, ⟨18, _⟩ => ⟨S256, .f32⟩
  | .hbm, ⟨19, _⟩ => ⟨S1x256, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S_, .f32⟩
  | .hbm, ⟨24, _⟩ => ⟨S256x128, .f32⟩
  | .hbm, ⟨25, _⟩ => ⟨S256x128, .f32⟩
  | .hbm, ⟨26, _⟩ => ⟨S128x256, .f32⟩
  | .hbm, ⟨27, _⟩ => ⟨S256x256, .f32⟩
  | .hbm, ⟨28, _⟩ => ⟨S256x256, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S_, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S_, .f32⟩
  | .hbm, ⟨37, _⟩ => ⟨S256x256, .f32⟩
  | .hbm, ⟨38, _⟩ => ⟨S256x256, .f32⟩
  | .hbm, ⟨39, _⟩ => ⟨S_, .f32⟩
  | .hbm, ⟨40, _⟩ => ⟨S256x256, .f32⟩
  | .hbm, ⟨41, _⟩ => ⟨S256x256, .f32⟩
  | .hbm, ⟨42, _⟩ => ⟨S256x256, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S256x128, .f32⟩
  | .hbm, ⟨48, _⟩ => ⟨S_, .f32⟩
  | .hbm, ⟨49, _⟩ => ⟨S256, .f32⟩
  | .hbm, ⟨50, _⟩ => ⟨S256x1, .f32⟩
  | .hbm, ⟨51, _⟩ => ⟨S256x128, .f32⟩
  | .hbm, ⟨52, _⟩ => ⟨S_, .f32⟩
  | .hbm, ⟨53, _⟩ => ⟨S256, .f32⟩
  | .hbm, ⟨54, _⟩ => ⟨S1x256, .f32⟩
  | .hbm, ⟨55, _⟩ => ⟨S256x256, .f32⟩
  | .hbm, ⟨56, _⟩ => ⟨S256x256, .f32⟩
  | .hbm, ⟨57, _⟩ => ⟨S256x256, .f32⟩
  | .hbm, ⟨58, _⟩ => ⟨S_, .f32⟩
  | .hbm, ⟨59, _⟩ => ⟨S256x128, .f32⟩
  | .hbm, ⟨60, _⟩ => ⟨S256x128, .f32⟩
  | .hbm, ⟨61, _⟩ => ⟨S128x256, .f32⟩
  | .hbm, ⟨62, _⟩ => ⟨S256x256, .f32⟩
  | .hbm, ⟨63, _⟩ => ⟨S256x256, .f32⟩
  | .hbm, ⟨64, _⟩ => ⟨S_, .f32⟩
  | .hbm, ⟨65, _⟩ => ⟨S256x256, .f32⟩
  | .hbm, ⟨66, _⟩ => ⟨S256x256, .f32⟩
  | .hbm, ⟨67, _⟩ => ⟨S256x256, .i32⟩
  | .hbm, ⟨68, _⟩ => ⟨S_, .i32⟩
  | .hbm, ⟨69, _⟩ => ⟨S256x256, .i32⟩
  | .hbm, ⟨70, _⟩ => ⟨S256x256, .i32⟩
  | .hbm, ⟨71, _⟩ => ⟨S256x256, .i32⟩
  | .hbm, ⟨72, _⟩ => ⟨S256x256, .i1⟩
  | .hbm, ⟨73, _⟩ => ⟨S_, .f32⟩
  | .hbm, ⟨74, _⟩ => ⟨S256x256, .f32⟩
  | .hbm, ⟨75, _⟩ => ⟨S256x256, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S256x128, .f32⟩
  | .hbm, ⟨81, _⟩ => ⟨S_, .f32⟩
  | .hbm, ⟨82, _⟩ => ⟨S256, .f32⟩
  | .hbm, ⟨83, _⟩ => ⟨S256x1, .f32⟩
  | .hbm, ⟨84, _⟩ => ⟨S256x128, .f32⟩
  | .hbm, ⟨85, _⟩ => ⟨S_, .f32⟩
  | .hbm, ⟨86, _⟩ => ⟨S256, .f32⟩
  | .hbm, ⟨87, _⟩ => ⟨S1x256, .f32⟩
  | .hbm, ⟨88, _⟩ => ⟨S256x256, .f32⟩
  | .hbm, ⟨89, _⟩ => ⟨S256x256, .f32⟩
  | .hbm, ⟨90, _⟩ => ⟨S256x256, .f32⟩
  | .hbm, ⟨91, _⟩ => ⟨S_, .f32⟩
  | .hbm, ⟨92, _⟩ => ⟨S256x128, .f32⟩
  | .hbm, ⟨93, _⟩ => ⟨S256x128, .f32⟩
  | .hbm, ⟨94, _⟩ => ⟨S128x256, .f32⟩
  | .hbm, ⟨95, _⟩ => ⟨S256x256, .f32⟩
  | .hbm, ⟨96, _⟩ => ⟨S256x256, .f32⟩
  | .hbm, ⟨97, _⟩ => ⟨S_, .f32⟩
  | .hbm, ⟨98, _⟩ => ⟨S256x256, .f32⟩
  | .hbm, ⟨99, _⟩ => ⟨S256x256, .f32⟩
  | .hbm, ⟨100, _⟩ => ⟨S256x256, .i32⟩
  | .hbm, ⟨101, _⟩ => ⟨S_, .i32⟩
  | .hbm, ⟨102, _⟩ => ⟨S256x256, .i32⟩
  | .hbm, ⟨103, _⟩ => ⟨S256x256, .i32⟩
  | .hbm, ⟨104, _⟩ => ⟨S256x256, .i32⟩
  | .hbm, ⟨105, _⟩ => ⟨S256x256, .i1⟩
  | .hbm, ⟨106, _⟩ => ⟨S_, .f32⟩
  | .hbm, ⟨107, _⟩ => ⟨S256x256, .f32⟩
  | .hbm, ⟨108, _⟩ => ⟨S256x256, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | _, _ => ⟨S256x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_v26 : Ref sig .tc := ⟨.hbm, 38, rfl⟩
abbrev main_cst_9 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_10 : Ref sig .tc := ⟨.hbm, 43, rfl⟩
abbrev main_v30 : Ref sig .tc := ⟨.hbm, 44, rfl⟩
abbrev main_cst_11 : Ref sig .tc := ⟨.hbm, 45, rfl⟩
abbrev main_v31 : Ref sig .tc := ⟨.hbm, 46, rfl⟩
abbrev main_v32 : Ref sig .tc := ⟨.hbm, 47, rfl⟩
abbrev main_cst_12 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_13 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_14 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_15 : Ref sig .tc := ⟨.hbm, 64, rfl⟩
abbrev main_v46 : Ref sig .tc := ⟨.hbm, 65, rfl⟩
abbrev main_v47 : Ref sig .tc := ⟨.hbm, 66, rfl⟩
abbrev main_call0_v0 : Ref sig .tc := ⟨.hbm, 67, rfl⟩
abbrev main_call0_c : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_cst : Ref sig .tc := ⟨.hbm, 73, rfl⟩
abbrev main_call0_v5 : Ref sig .tc := ⟨.hbm, 74, rfl⟩
abbrev main_v48 : Ref sig .tc := ⟨.hbm, 75, rfl⟩
abbrev main_cst_16 : Ref sig .tc := ⟨.hbm, 76, rfl⟩
abbrev main_v49 : Ref sig .tc := ⟨.hbm, 77, rfl⟩
abbrev main_cst_17 : Ref sig .tc := ⟨.hbm, 78, rfl⟩
abbrev main_v50 : Ref sig .tc := ⟨.hbm, 79, rfl⟩
abbrev main_v51 : Ref sig .tc := ⟨.hbm, 80, rfl⟩
abbrev main_cst_18 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_19 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_20 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_21 : Ref sig .tc := ⟨.hbm, 97, rfl⟩
abbrev main_v65 : Ref sig .tc := ⟨.hbm, 98, rfl⟩
abbrev main_v66 : Ref sig .tc := ⟨.hbm, 99, rfl⟩
abbrev main_call1_v0 : Ref sig .tc := ⟨.hbm, 100, rfl⟩
abbrev main_call1_c : Ref sig .tc := ⟨.hbm, 101, rfl⟩
abbrev main_call1_v1 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_cst : Ref sig .tc := ⟨.hbm, 106, rfl⟩
abbrev main_call1_v5 : Ref sig .tc := ⟨.hbm, 107, rfl⟩
abbrev main_v67 : Ref sig .tc := ⟨.hbm, 108, rfl⟩
abbrev main_cst_22 : Ref sig .tc := ⟨.hbm, 109, rfl⟩
abbrev main_v68 : Ref sig .tc := ⟨.hbm, 110, rfl⟩
abbrev main_cst_23 : Ref sig .tc := ⟨.hbm, 111, rfl⟩
abbrev main_v69 : Ref sig .tc := ⟨.hbm, 112, rfl⟩
abbrev main_cst_24 : Ref sig .tc := ⟨.hbm, 113, rfl⟩
abbrev main_v70 : Ref sig .tc := ⟨.hbm, 114, rfl⟩
abbrev main_cst_25 : Ref sig .tc := ⟨.hbm, 115, rfl⟩
abbrev main_v71 : Ref sig .tc := ⟨.hbm, 116, rfl⟩
abbrev main_v72 : Ref sig .tc := ⟨.hbm, 117, rfl⟩
abbrev main_cst_26 : Ref sig .tc := ⟨.hbm, 118, rfl⟩
abbrev main_v73 : Ref sig .tc := ⟨.hbm, 119, rfl⟩
abbrev main_v74 : Ref sig .tc := ⟨.hbm, 120, rfl⟩

abbrev nD : Nat := 1
abbrev τ : Topo := Topo.v7x

variable {F : FTy → Type} [FloatOps F]

class Facts₀ : Prop where
  reducesTo_S256x2048x128_S256x128_d1 : S256x2048x128.ReducesTo [1] S256x128
  h_S_ : 0 < S_.numel
  bcast_S_S256x128 : S_.BroadcastsInDim S256x128 (![] : Fin 0 → Fin S256x128.rank)
  reducesTo_S256x128_S256_d1 : S256x128.ReducesTo [1] S256
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  transposes_S256x128_S128x256_1_0 : S256x128.Transposes [1, 0] S128x256
  bcast_S_S256x256 : S_.BroadcastsInDim S256x256 (![] : Fin 0 → Fin S256x256.rank)
  reducesTo_S256x256_S_d0_1 : S256x256.ReducesTo [0, 1] S_
  dot_S256x128_S128x256_S256x256_1_0_0_1_n_n_wf : DotDims.WF S256x128 S128x256 S256x256 [1] [0] [0] [1] [] []

variable [Facts₀]

def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf

class Facts : Prop extends Facts₀ where

variable [Facts]
-- ==== Proof.KernelRun.lean ====
/-
  The idealized kernel program's run with its result named.

  The program is two kernel regions followed by one host reshape.  Its generated frame certificate already lays the run
  out as three segments and names the buffer contents at each boundary: `W1` after the centroid region, `W2` after the
  loss region, `W3` after the reshape.  Here the same segments are run once more, keeping of the final state not only
  the two argument arrays but also the result buffer: it holds `W3` at its own reference.
-/
import proofs.«174393_j79207786873536_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the two argument arrays as launched. -/
theorem run_named : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c)⟩)

end Cert.KernelIdeal.RunValue

end
-- ==== Proof.LibFactorSum.lean ====
/-
  A finite nonnegative factor moves inside a finite sum of extended reals.

  On the extended reals multiplication does not distribute over addition in general (an infinite factor against a sum of
  opposite infinities), but for a FINITE factor `c ≥ 0` it does, whatever the summands: `c · (x + y) = c · x + c · y` for all
  extended reals `x`, `y`.  By induction the factor moves inside any finite sum, with no finiteness asked of the terms — the
  step that identifies "twice an inner product" with "the inner product of a doubled row", or any constant scale applied
  before against after a contraction.  The f32 word of 2.0 is the real 2, the usual such factor.
-/
import Idealize.ShloMosaic.PureOps.Ideal.Laws

noncomputable section

open scoped BigOperators

namespace Cert.Lib.FactorSum

open Idealize.ShloMosaic

/-- For a finite `c ≥ 0` and ANY extended reals `f i`: `c · ∑ f = ∑ c · f`. -/
theorem mul_sum_of_nonneg {ι : Type*} (c : EReal) (h0 : 0 ≤ c) (ht : c ≠ ⊤) (s : Finset ι) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- The same for a real `c ≥ 0`. -/
theorem coe_mul_sum {ι : Type*} (c : ℝ) (hc : 0 ≤ c) (s : Finset ι) (f : ι → EReal) :
    (c : EReal) * ∑ i ∈ s, f i = ∑ i ∈ s, (c : EReal) * f i :=
  mul_sum_of_nonneg (c : EReal) (by exact_mod_cast hc) (EReal.coe_ne_top c) s f

/-- The f32 word of 2.0 denotes the real 2. -/
theorem ofBits_two : Ideal.ofBits .f32 0x40000000#32 = ((2 : ℝ) : EReal) := by
  simp [Ideal.ofBits, Ideal.ieee]
  rw [← EReal.coe_mul]
  exact congrArg _ (by norm_num)

/-- So twice a finite sum is the sum of the doubled terms. -/
theorem two_mul_sum {ι : Type*} (s : Finset ι) (f : ι → EReal) :
    Ideal.ofBits .f32 0x40000000#32 * ∑ i ∈ s, f i = ∑ i ∈ s, Ideal.ofBits .f32 0x40000000#32 * f i := by
  rw [ofBits_two]; exact coe_mul_sum 2 (by norm_num) s f

end Cert.Lib.FactorSum

end
-- ==== Proof.Spec.lean ====
/-
  The contrastive loss both programs compute, as ONE function of two centroid arrays, and a centroid array as a function
  of the concept array it averages.

  A concept array is 256 batches of 2048 tokens of 128 features; its centroid array holds, per batch and feature, the
  sum over the 2048 tokens divided by 2048.  From two centroid arrays E and V (256 rows of 128 features each):
    * the squared norm of a row, the inner product of a row of E with a row of V, and the squared distance between them by
      the expansion  |e|² + |v|² - 2 (e · v),  clamped below at 0;
    * the separation term: over all 256 × 256 pairs, the mean of  max (10 - sqrt (d + 1e-12)) 0  squared;
    * the clustering term of one array: the sum of its own squared distances over the pairs with column index above the
      row index, divided by the number 32640 of such pairs;
    * the total  3 · separation + 0.3 · clustering E + 0.3 · clustering V.
  Float literals stay as the words the two programs share; only the zero word is read (it is 0).

  Two laws of the extended reals are used, neither needing a finite operand: a finite nonnegative factor moves inside a
  finite sum (so twice an inner product is the inner product of the doubled row), and a sum over 2048 consecutive positions
  is the sum of eight runs of 256.
-/
import proofs.«174393_j79207786873536_2_alg».proof.Proof.LibFactorSum
import Idealize.ShloMosaic.PureOps.Ideal.Laws
import Idealize.ShloMosaic.Lib.ValueIdx

noncomputable section

open scoped BigOperators

namespace Cert.Spec

open Idealize.ShloMosaic Idealize.ShloMosaic.ValueIdx

/-- A concept array: batch, token, feature. -/
abbrev Concepts := (⟨3, ![256, 2048, 128]⟩ : Shape).Idx → EReal
/-- A centroid array: batch, feature. -/
abbrev Mat := (⟨2, ![256, 128]⟩ : Shape).Idx → EReal

/-- The centroid of batch `p` at feature `q`: the sum over the tokens divided by the word of 2048. -/
def cenAt (X : Concepts) (p : Fin 256) (q : Fin 128) : EReal :=
  Ideal.div (∑ s : Fin 2048, X (ix3 p s q)) (Ideal.ofBits .f32 0x45000000#32)

/-- The centroid array. -/
def cen (X : Concepts) : Mat := fun i => cenAt X (i 0) (i 1)

theorem cen_apply (X : Concepts) (p : Fin 256) (q : Fin 128) : cen X (ix2 p q) = cenAt X p q := rfl

/-- Row `p`'s squared norm. -/
def sqn (E : Mat) (p : Fin 256) : EReal := ∑ k : Fin 128, E (ix2 p k) * E (ix2 p k)

/-- The inner product of row `p` of `E` with row `q` of `V`. -/
def dot (E V : Mat) (p q : Fin 256) : EReal := ∑ k : Fin 128, E (ix2 p k) * V (ix2 q k)

/-- The squared distance between row `p` of `E` and row `q` of `V` by the expansion, clamped below at 0. -/
def sqd (E V : Mat) (p q : Fin 256) : EReal :=
  max (sqn E p + sqn V q - Ideal.ofBits .f32 0x40000000#32 * dot E V p q) 0

/-- One pair's separation term: the margin 10 less the distance (the root of the squared distance plus 1e-12), clamped
    below at 0, squared. -/
def hinge (d : EReal) : EReal :=
  max (Ideal.ofBits .f32 0x41200000#32 - Ideal.sqrt (d + Ideal.ofBits .f32 0x2B8CBCCC#32)) 0
    * max (Ideal.ofBits .f32 0x41200000#32 - Ideal.sqrt (d + Ideal.ofBits .f32 0x2B8CBCCC#32)) 0

/-- The separation term: the mean of the pairs' terms over the 65536 pairs. -/
def sep (E V : Mat) : EReal :=
  Ideal.div (∑ p : Fin 256, ∑ q : Fin 256, hinge (sqd E V p q)) (Ideal.ofBits .f32 0x47800000#32)

/-- The clustering term of one array: its squared distances summed over the pairs above the diagonal, over their number. -/
def clu (E : Mat) : EReal :=
  Ideal.div (∑ p : Fin 256, ∑ q : Fin 256, if p.val < q.val then sqd E E p q else 0) (Ideal.ofBits .f32 0x46FF0000#32)

/-- The loss. -/
def total (E V : Mat) : EReal :=
  Ideal.ofBits .f32 0x40400000#32 * sep E V + Ideal.ofBits .f32 0x3E99999A#32 * clu E
    + Ideal.ofBits .f32 0x3E99999A#32 * clu V

/-! ## Twice an inner product -/

/-- Twice an inner product is the inner product with the left row doubled entry by entry. -/
theorem two_mul_dot (E V : Mat) (p q : Fin 256) :
    Ideal.ofBits .f32 0x40000000#32 * dot E V p q
      = ∑ k : Fin 128, (Ideal.ofBits .f32 0x40000000#32 * E (ix2 p k)) * V (ix2 q k) := by
  unfold dot
  rw [Cert.Lib.FactorSum.two_mul_sum]
  exact Finset.sum_congr rfl fun k _ => (mul_assoc _ _ _).symm

/-! ## A sum over 2048 positions as eight runs of 256 -/

/-- Position `256 c + r` of run `c`. -/
def pos (c : Fin 8) (r : Fin 256) : Fin 2048 := ⟨256 * c.val + r.val, by have := c.isLt; have := r.isLt; omega⟩

theorem sum_runs {M : Type*} [AddCommMonoid M] (f : Fin 2048 → M) :
    ∑ s : Fin 2048, f s = ∑ c : Fin 8, ∑ r : Fin 256, f (pos c r) := by
  rw [← Fintype.sum_prod_type' (f := fun c r => f (pos c r))]
  rw [← Equiv.sum_comp (finProdFinEquiv (m := 8) (n := 256)) f]
  refine Finset.sum_congr rfl fun x _ => congrArg f (Fin.ext ?_)
  show x.2.val + 256 * x.1.val = 256 * x.1.val + x.2.val
  omega

end Cert.Spec

end
-- ==== Proof.CentroidPayload.lean ====
/-
  What the centroid kernel stores, entry by entry.

  At one grid point the kernel holds a block of 8 batches of a concept array: 8 × 2048 × 128.  It loads the block in eight
  runs of 256 tokens, sums each run over its tokens, adds the eight sums one after the other starting from zero, and divides
  by 2048.  So the stored 8 × 128 block holds, per batch and feature, the sum over all 2048 tokens divided by 2048: the sum
  over 2048 positions is the sum of the eight runs' sums, and adding zero first changes nothing.  The two outputs differ
  only in how the printed text groups the eight additions.
-/
import proofs.«174393_j79207786873536_2_alg».proof.Proof.Gen.KernelIdeal.Skeleton
import proofs.«174393_j79207786873536_2_alg».proof.Proof.Spec
import Idealize.ShloMosaic.Lib.Pipeline.Value
import Idealize.ShloMosaic.PureOps.Ideal.Laws

set_option maxRecDepth 16384

noncomputable section

namespace Cert.KernelIdeal.CentroidValue

open Cert.KernelIdeal Cert.KernelIdeal.Gen
open Idealize.ShloMosaic Idealize.ShloMosaic.TcCoe Idealize.ShloMosaic.ValueIdx Idealize.SL.Sem
open scoped BigOperators

/-- One run's sum over its 256 tokens, at batch `b` and feature `d`. -/
theorem run_sum (v : FVec Ideal S8x256x128 .f32)
    (hφ : FKind.Formats FTy.f32) (hacc : (0x00000000#32 : BitVec 32) = 0x00000000#32)
    (b : Fin 8) (d : Fin 128) :
    multiReduction (F := Ideal) .add [1] S8x128 v 0x00000000#32 reduces_S8x256x128_S8x128 hφ hacc (ix2 b d)
      = ∑ r : Fin 256, v (ix3 b r d) := by
  refine (Ideal.multiReduction_add_single v 0x00000000#32 reduces_S8x256x128_S8x128 hφ hacc (ix2 b d)).trans ?_
  refine Finset.sum_congr rfl fun r _ => ?_
  refine congrArg v (funext fun a => Fin.ext ?_)
  match a with
  | ⟨0, _⟩ => rfl
  | ⟨1, _⟩ => rfl
  | ⟨2, _⟩ => rfl

/-- The first output's stored value at `(b, d)`: the eight runs' sums added up, over the word of 2048. -/
theorem first_at (l0 l1 l2 l3 l4 l5 l6 l7 : FVec Ideal S8x256x128 .f32) (b : Fin 8) (d : Fin 128) :
    k0_pay3 (F := Ideal) (k0_pay2 (F := Ideal) l0 l1 l2 l3 l4) l5 l6 l7 (ix2 b d)
      = Ideal.div (∑ c : Fin 8, ∑ r : Fin 256, (![l0, l1, l2, l3, l4, l5, l6, l7] c) (ix3 b r d)) (Ideal.ofBits .f32 0x45000000#32) := by
  unfold k0_pay3 k0_pay2
  simp only [divf_apply, addf_apply, broadcast_apply]
  rw [run_sum l0, run_sum l1, run_sum l2, run_sum l3, run_sum l4, run_sum l5, run_sum l6, run_sum l7]
  rw [Fin.sum_univ_eight]
  show Ideal.div (Ideal.ofBits .f32 0x00000000#32 + _ + _ + _ + _ + _ + _ + _ + _) _ = _
  rw [Ideal.ofBits_zero_f32, zero_add]
  rfl

/-- The second output's stored value at `(b, d)`: the same, the additions grouped otherwise in the text. -/
theorem second_at (l0 l1 l2 l3 l4 l5 l6 l7 : FVec Ideal S8x256x128 .f32) (b : Fin 8) (d : Fin 128) :
    k0_pay1 (F := Ideal) (k0_pay5 (F := Ideal) (k0_pay4 (F := Ideal) l0) l1 l2 l3 l4 l5 l6) l7 (ix2 b d)
      = Ideal.div (∑ c : Fin 8, ∑ r : Fin 256, (![l0, l1, l2, l3, l4, l5, l6, l7] c) (ix3 b r d)) (Ideal.ofBits .f32 0x45000000#32) := by
  unfold k0_pay1 k0_pay5 k0_pay4
  simp only [divf_apply, addf_apply, broadcast_apply]
  rw [run_sum l0, run_sum l1, run_sum l2, run_sum l3, run_sum l4, run_sum l5, run_sum l6, run_sum l7]
  rw [Fin.sum_univ_eight]
  show Ideal.div (Ideal.ofBits .f32 0x00000000#32 + _ + _ + _ + _ + _ + _ + _ + _) _ = _
  rw [Ideal.ofBits_zero_f32, zero_add]
  rfl

/-- The mean over the 2048 tokens of a block of 8 batches, per batch and feature. -/
def blockMean (x : S8x2048x128.Idx → EReal) : S8x128.Idx → EReal :=
  fun j => Ideal.div (∑ s : Fin 2048, x (ix3 (j 0) s (j 1))) (Ideal.ofBits .f32 0x45000000#32)

theorem blockMean_apply (x : S8x2048x128.Idx → EReal) (b : Fin 8) (d : Fin 128) :
    blockMean x (ix2 b d) = Ideal.div (∑ s : Fin 2048, x (ix3 b s d)) (Ideal.ofBits .f32 0x45000000#32) := rfl

/-- Eight vectors that are the eight runs of a block add up to the block's sums. -/
theorem runs_sum (x : S8x2048x128.Idx → EReal) (l : Fin 8 → FVec Ideal S8x256x128 .f32)
    (hl : ∀ (c : Fin 8) (b : Fin 8) (r : Fin 256) (d : Fin 128), l c (ix3 b r d) = x (ix3 b (Cert.Spec.pos c r) d))
    (b : Fin 8) (d : Fin 128) :
    ∑ c : Fin 8, ∑ r : Fin 256, l c (ix3 b r d) = ∑ s : Fin 2048, x (ix3 b s d) := by
  rw [Cert.Spec.sum_runs (fun s => x (ix3 b s d))]
  exact Finset.sum_congr rfl fun c _ => Finset.sum_congr rfl fun r _ => hl c b r d

/-- THE FIRST OUTPUT'S BLOCK is the block's mean, when the eight loaded vectors are the block's eight runs. -/
theorem first_block (x : S8x2048x128.Idx → EReal) (l0 l1 l2 l3 l4 l5 l6 l7 : FVec Ideal S8x256x128 .f32)
    (hl : ∀ (c : Fin 8) (b : Fin 8) (r : Fin 256) (d : Fin 128),
      (![l0, l1, l2, l3, l4, l5, l6, l7] c) (ix3 b r d) = x (ix3 b (Cert.Spec.pos c r) d)) :
    k0_pay3 (F := Ideal) (k0_pay2 (F := Ideal) l0 l1 l2 l3 l4) l5 l6 l7 = blockMean x := by
  funext j
  obtain ⟨b, d, rfl⟩ : ∃ (b : Fin 8) (d : Fin 128), j = ix2 b d := ⟨j 0, j 1, eq_ix2 j⟩
  rw [first_at, blockMean_apply, runs_sum x _ hl b d]

/-- THE SECOND OUTPUT'S BLOCK likewise. -/
theorem second_block (x : S8x2048x128.Idx → EReal) (l0 l1 l2 l3 l4 l5 l6 l7 : FVec Ideal S8x256x128 .f32)
    (hl : ∀ (c : Fin 8) (b : Fin 8) (r : Fin 256) (d : Fin 128),
      (![l0, l1, l2, l3, l4, l5, l6, l7] c) (ix3 b r d) = x (ix3 b (Cert.Spec.pos c r) d)) :
    k0_pay1 (F := Ideal) (k0_pay5 (F := Ideal) (k0_pay4 (F := Ideal) l0) l1 l2 l3 l4 l5 l6) l7 = blockMean x := by
  funext j
  obtain ⟨b, d, rfl⟩ : ∃ (b : Fin 8) (d : Fin 128), j = ix2 b d := ⟨j 0, j 1, eq_ix2 j⟩
  rw [second_at, blockMean_apply, runs_sum x _ hl b d]

end Cert.KernelIdeal.CentroidValue

end
-- ==== Proof.CentroidArrays.lean ====
/-
  The centroid region's two output arrays.

  The region runs over 32 grid points; point t holds batches 8t … 8t+7 of each concept array (all tokens, all features) and
  writes back rows 8t … 8t+7 of each centroid array.  What it stores is the block's mean over the tokens (the eight loaded
  runs are the block's eight runs of 256 tokens), and row 8t+b of the whole array's centroid depends on batch 8t+b alone, so
  the written block is that block of the centroid array of the whole input.  The 32 blocks cover the 256 rows: row r is in
  the block of point r / 8.  So after the region each output array is the centroid array of its input as the region found it.
-/
import proofs.«174393_j79207786873536_2_alg».proof.Proof.Gen.KernelIdeal.Frame
import proofs.«174393_j79207786873536_2_alg».proof.Proof.CentroidPayload
import Idealize.ShloMosaic.Lib.Pipeline.Value

set_option maxRecDepth 16384

noncomputable section

namespace Cert.KernelIdeal.CentroidArrays

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)
open scoped BigOperators

theorem origin2 : (![0, 0] : Fin 2 → Nat) = fun _ => 0 := funext fun a => by fin_cases a <;> rfl

/-! ## The stored blocks -/

/-- A run of 256 tokens loaded from a block at token offset `256 c` is run `c` of the block. -/
theorem ld_run (x : Vec Ideal S8x2048x128 .f32) (o : ℕ) (c : Fin 8) (ho : o = 256 * c.val)
    (h : ∀ a, (![0, o, 0] : Fin 3 → ℕ) a + S8x256x128.size a ≤ S8x2048x128.size a) (b : Fin 8) (r : Fin 256) (d : Fin 128) :
    View.ld (Val := Elt Ideal) (e' := .f32) x (Rect.unit (s := S8x2048x128) ![0, o, 0] S8x256x128.size h) (ix3 b r d)
      = x (ix3 b (Cert.Spec.pos c r) d) := by
  subst ho
  refine congrArg x (funext fun a => Fin.ext ?_)
  match a with
  | ⟨0, _⟩ => show 0 + 1 * b.val = b.val; omega
  | ⟨1, _⟩ => show 256 * c.val + 1 * r.val = 256 * c.val + r.val; omega
  | ⟨2, _⟩ => show 0 + 1 * d.val = d.val; omega

/-- What the body leaves in the first output's buffer: the mean over the tokens of the first input's block. -/
theorem out2_eq (c : Dev nD) (i : grid0.Coords) (arg1 : Memref sig .tc .vmem S8x2048x128 .f32) (harg1 : arg1.IsWhole) (arg2 : Memref sig .tc .vmem S8x2048x128 .f32) (harg2 : arg2.IsWhole) (arg3 : Memref sig .tc .vmem S8x128 .f32) (harg3 : arg3.IsWhole) (arg4 : Memref sig .tc .vmem S8x128 .f32) (harg4 : arg4.IsWhole)
    (x0 : Vec Ideal S8x2048x128 .f32) (x1 : Vec Ideal S8x2048x128 .f32) :
    out0_A_2 (F := Ideal) c i arg1 harg1 arg2 harg2 arg3 harg3 arg4 harg4 x0 x1 = CentroidValue.blockMean x0 := by
  unfold out0_A_2
  rw [View.read_writes_eq_canon _ _ _ (cover0_A_2 c i arg1 harg1 arg2 harg2 arg3 harg3 arg4 harg4 x0 x1)]
  unfold kernelRun0_A
  dsimp only
  sl_unfold_words
  rw [View.canon_unit_zero origin2]
  simp only [View.readAt_eq_ld, harg1.read_unread]
  refine CentroidValue.first_block x0 _ _ _ _ _ _ _ _ (fun c b r d => ?_)
  match c with
  | ⟨0, _⟩ => exact ld_run x0 0 0 rfl _ b r d
  | ⟨1, _⟩ => exact ld_run x0 256 1 rfl _ b r d
  | ⟨2, _⟩ => exact ld_run x0 512 2 rfl _ b r d
  | ⟨3, _⟩ => exact ld_run x0 768 3 rfl _ b r d
  | ⟨4, _⟩ => exact ld_run x0 1024 4 rfl _ b r d
  | ⟨5, _⟩ => exact ld_run x0 1280 5 rfl _ b r d
  | ⟨6, _⟩ => exact ld_run x0 1536 6 rfl _ b r d
  | ⟨7, _⟩ => exact ld_run x0 1792 7 rfl _ b r d

/-- What the body leaves in the second output's buffer: the mean over the tokens of the second input's block. -/
theorem out3_eq (c : Dev nD) (i : grid0.Coords) (arg1 : Memref sig .tc .vmem S8x2048x128 .f32) (harg1 : arg1.IsWhole) (arg2 : Memref sig .tc .vmem S8x2048x128 .f32) (harg2 : arg2.IsWhole) (arg3 : Memref sig .tc .vmem S8x128 .f32) (harg3 : arg3.IsWhole) (arg4 : Memref sig .tc .vmem S8x128 .f32) (harg4 : arg4.IsWhole)
    (x0 : Vec Ideal S8x2048x128 .f32) (x1 : Vec Ideal S8x2048x128 .f32) :
    out0_A_3 (F := Ideal) c i arg1 harg1 arg2 harg2 arg3 harg3 arg4 harg4 x0 x1 = CentroidValue.blockMean x1 := by
  unfold out0_A_3
  rw [View.read_writes_eq_canon _ _ _ (cover0_A_3 c i arg1 harg1 arg2 harg2 arg3 harg3 arg4 harg4 x0 x1)]
  unfold kernelRun0_A
  dsimp only
  sl_unfold_words
  rw [View.canon_unit_zero origin2]
  simp only [View.readAt_eq_ld, harg2.read_unread]
  refine CentroidValue.second_block x1 _ _ _ _ _ _ _ _ (fun c b r d => ?_)
  match c with
  | ⟨0, _⟩ => exact ld_run x1 0 0 rfl _ b r d
  | ⟨1, _⟩ => exact ld_run x1 256 1 rfl _ b r d
  | ⟨2, _⟩ => exact ld_run x1 512 2 rfl _ b r d
  | ⟨3, _⟩ => exact ld_run x1 768 3 rfl _ b r d
  | ⟨4, _⟩ => exact ld_run x1 1024 4 rfl _ b r d
  | ⟨5, _⟩ => exact ld_run x1 1280 5 rfl _ b r d
  | ⟨6, _⟩ => exact ld_run x1 1536 6 rfl _ b r d
  | ⟨7, _⟩ => exact ld_run x1 1792 7 rfl _ b r d

/-! ## From the blocks to the arrays -/

variable (V : (c : Dev nD) → (b : Ref sig .tc) → Buf (Elt Ideal) ((c : Thread nD τ).loc b))

/-- The printed index maps over the 32 points: point `t` takes block `t` along the batches and block 0 along every
    other axis, in all four windows. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK to the first output is block `t` of the centroid array of the first input. -/
theorem flushed2_eq (c : Dev nD) (t : Fin cfg0.N) :
    (dat0 V c).flushed 2 t = ((cfg0.win 2).blk t).view.read (Elt Ideal) (Cert.Spec.cen (V c main_arg0)) := by
  show (cfg0.win 2).cut (grid0.coords t) ((dat0 V c).after 2 t) = _
  rw [after0_2]
  unfold outsAt0
  dsimp only
  rw [out2_eq]
  obtain ⟨e00, e01, e02, -, -, -, e20, e21, -, -⟩ := block_index t
  funext j
  show CentroidValue.blockMean (iblk0 V c 0 t) j = Cert.Spec.cen (V c main_arg0) (((cfg0.win 2).blk t).view.emb j)
  refine congrArg (fun s => Ideal.div s _) (Finset.sum_congr rfl fun s _ => ?_)
  show V c main_arg0 (((cfg0.win 0).blk t).view.emb (ix3 (j 0) s (j 1))) = _
  refine congrArg (V c main_arg0) (funext fun a => Fin.ext ?_)
  match a with
  | ⟨0, _⟩ => show win0_0.index t (0 : Fin 3) * 8 + 1 * (j 0).val = win0_2.index t (0 : Fin 2) * 8 + 1 * (j 0).val; omega
  | ⟨1, _⟩ => show win0_0.index t (1 : Fin 3) * 2048 + 1 * s.val = s.val; omega
  | ⟨2, _⟩ => show win0_0.index t (2 : Fin 3) * 128 + 1 * (j 1).val = win0_2.index t (1 : Fin 2) * 128 + 1 * (j 1).val; omega

/-- WHAT POINT `t` WRITES BACK to the second output is block `t` of the centroid array of the second input. -/
theorem flushed3_eq (c : Dev nD) (t : Fin cfg0.N) :
    (dat0 V c).flushed 3 t = ((cfg0.win 3).blk t).view.read (Elt Ideal) (Cert.Spec.cen (V c main_arg1)) := by
  show (cfg0.win 3).cut (grid0.coords t) ((dat0 V c).after 3 t) = _
  rw [after0_3]
  unfold outsAt0
  dsimp only
  rw [out3_eq]
  obtain ⟨-, -, -, e10, e11, e12, -, -, e30, e31⟩ := block_index t
  funext j
  show CentroidValue.blockMean (iblk0 V c 1 t) j = Cert.Spec.cen (V c main_arg1) (((cfg0.win 3).blk t).view.emb j)
  refine congrArg (fun s => Ideal.div s _) (Finset.sum_congr rfl fun s _ => ?_)
  show V c main_arg1 (((cfg0.win 1).blk t).view.emb (ix3 (j 0) s (j 1))) = _
  refine congrArg (V c main_arg1) (funext fun a => Fin.ext ?_)
  match a with
  | ⟨0, _⟩ => show win0_1.index t (0 : Fin 3) * 8 + 1 * (j 0).val = win0_3.index t (0 : Fin 2) * 8 + 1 * (j 0).val; omega
  | ⟨1, _⟩ => show win0_1.index t (1 : Fin 3) * 2048 + 1 * s.val = s.val; omega
  | ⟨2, _⟩ => show win0_1.index t (2 : Fin 3) * 128 + 1 * (j 1).val = win0_3.index t (1 : Fin 2) * 128 + 1 * (j 1).val; omega

/-- A row and feature are in point `t`'s block of the first output iff each lies in the block's range on its axis. -/
theorem mem_blk2 (t : Fin cfg0.N) (i : S256x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0_0).slice (win0_2.rect t)).set ↔ _
  rw [View.set_slice_whole, Rect.mem_set_unit]
  exact Iff.rfl

theorem mem_blk3 (t : Fin cfg0.N) (i : S256x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v0_1).slice (win0_3.rect t)).set ↔ _
  rw [View.set_slice_whole, Rect.mem_set_unit]
  exact Iff.rfl

/-- The point that writes row `r`: `r / 8`. -/
theorem point_of_row (r : ℕ) (hr : r < 256) : ∃ t : Fin cfg0.N, t.val = r / 8 :=
  ⟨⟨r / 8, by show r / 8 < grid0.N; rw [N_0]; omega⟩, rfl⟩

/-- Every entry of the first output is in some point's block. -/
theorem cover2 (i : S256x128.Idx) : ∃ t : Fin cfg0.N, (cfg0.win 2).flush t = true ∧ i ∈ ((cfg0.win 2).blk t).view.set := by
  have hi0 : (i 0).val < 256 := (i 0).isLt
  have hi1 : (i 1).val < 128 := (i 1).isLt
  obtain ⟨t, ht⟩ := point_of_row (i 0).val hi0
  obtain ⟨-, -, -, -, -, -, e20, e21, -, -⟩ := block_index t
  refine ⟨t, flush0_2 t, ?_⟩
  rw [mem_blk2]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 128 ≤ (i 1).val ∧ (i 1).val < win0_2.index t (1 : Fin 2) * 128 + 128; omega

/-- Every entry of the second output is in some point's block. -/
theorem cover3 (i : S256x128.Idx) : ∃ t : Fin cfg0.N, (cfg0.win 3).flush t = true ∧ i ∈ ((cfg0.win 3).blk t).view.set := by
  have hi0 : (i 0).val < 256 := (i 0).isLt
  have hi1 : (i 1).val < 128 := (i 1).isLt
  obtain ⟨t, ht⟩ := point_of_row (i 0).val hi0
  obtain ⟨-, -, -, -, -, -, -, -, e30, e31⟩ := block_index t
  refine ⟨t, flush0_3 t, ?_⟩
  rw [mem_blk3]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 128 ≤ (i 1).val ∧ (i 1).val < win0_3.index t (1 : Fin 2) * 128 + 128; omega

/-- THE FIRST OUTPUT ARRAY after the region: the centroid array of the first input as the region found it. -/
theorem final2 (c : Dev nD) : (dat0 V c).arrAt 2 cfg0.N = Cert.Spec.cen (V c main_arg0) :=
  (dat0 V c).arrAt_eq_of_cover 2 _ (fun t _ => flushed2_eq V c t) cover2

/-- THE SECOND OUTPUT ARRAY after the region: the centroid array of the second input as the region found it. -/
theorem final3 (c : Dev nD) : (dat0 V c).arrAt 3 cfg0.N = Cert.Spec.cen (V c main_arg1) :=
  (dat0 V c).arrAt_eq_of_cover 3 _ (fun t _ => flushed3_eq V c t) cover3

end Cert.KernelIdeal.CentroidArrays

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibMaskBits.lean ====
/-
  The one-bit words of a lower-triangular mask, read as the propositions they encode.

  A mask "column s is visible from row t" is computed on 32-bit words: the row number and the column number, each written as a
  word, compared signed with "greater or equal". For numbers below 2^31 the word's signed value is the number itself, so the
  comparison's bit is 1 exactly when s ≤ t. A select on such a bit is then an if-then-else on the proposition, and a select that
  only copies the bit (1 where it is 1, 0 elsewhere) is the bit.
-/
import Idealize.ShloMosaic.PureOps.Ideal
import Idealize.ShloMosaic.Lib.Affine

namespace MaskBits

open Idealize.ShloMosaic

/-- A number below 2^31, written as a 32-bit word and read back signed, is itself. -/
theorem toInt_ofNat_small (n : ℕ) (h : n < 2 ^ 31) : (BitVec.ofNat 32 n).toInt = (n : ℤ) := by
  rw [BitVec.toInt_eq_toNat_cond, BitVec.toNat_ofNat, Nat.mod_eq_of_lt (by omega)]
  rw [if_pos (by omega)]

/-- The signed comparison "row ≥ column" of two small numbers written as words says 1 exactly when column ≤ row. -/
theorem sge_ofNat_iff (t s : ℕ) (ht : t < 2 ^ 31) (hs : s < 2 ^ 31) :
    IntOp.cmpi .sge (BitVec.ofNat 32 t) (BitVec.ofNat 32 s) = 1#1 ↔ s ≤ t := by
  rw [IntOp.cmpi_sge, toInt_ofNat_small t ht, toInt_ofNat_small s hs]
  exact Int.ofNat_le

/-- Adding the zero word changes nothing. -/
theorem addi_zero (x : BitVec 32) : IntOp.addi x 0#32 = x := by
  unfold IntOp.addi; exact BitVec.add_zero x

/-- A select on a bit that encodes a proposition is the if-then-else on the proposition. -/
theorem select_of_iff {α : Type} {c : BitVec 1} {p : Prop} [Decidable p] (h : c = 1#1 ↔ p) (a b : α) :
    Scalar.select c a b = if p then a else b := by
  unfold Scalar.select
  by_cases hp : p
  · rw [if_pos hp]; exact if_pos (h.2 hp)
  · rw [if_neg hp]; exact if_neg (fun hc => hp (h.1 hc))

/-- A select that writes 1 where the bit is 1 and 0 elsewhere is the bit. -/
theorem select_one_zero (c : BitVec 1) : Scalar.select c (1#1 : BitVec 1) (0#1 : BitVec 1) = c := by
  revert c; decide

end MaskBits
-- ==== Proof.LossPayload.lean ====
/-
  The value the loss kernel stores is the contrastive loss of its two input blocks.

  From two arrays E and V of 256 rows of 128 features the kernel forms, as whole-array operations: the column of the rows'
  squared norms (a product with itself summed along the features); the matrix of inner products (a matrix product with the
  transposed array into the zero array); the matrix of squared distances by the expansion |e|² + |v|² − 2 (e · v) — a norm
  column spread over the columns plus a norm column laid as a row and spread over the rows, less twice the inner
  products — clamped below at 0.  The separation term takes, of each squared distance d, max (10 − sqrt (d + 1e-12)) 0
  squared, sums the matrix in two stages (along the columns into a column, then along the rows into one entry) and divides
  by 65536.  Each clustering term takes the squared distances of one array with itself, keeps those whose column number
  exceeds the row number, sums in the same two stages and divides by 32640.  The stored value is
  3 · separation + 0.3 · clustering E + 0.3 · clustering V.

  Each of these stages is read here at an index: a sum along one axis is the sum over that axis's coordinates; the matrix
  product at (p, q) is the inner product of row p with row q; the spread columns read the norms of row p and of row q;
  the comparison of the two coordinate arrays, as signed words, is the comparison p < q of numbers below 256; the
  two-stage sum is the double sum.  The same words for the float constants stand on both sides; only the zero word is
  read (it is 0).  Nothing is assumed of E and V: no entry need be finite.
-/
import proofs.«174393_j79207786873536_2_alg».proof.Proof.Gen.KernelIdeal.Skeleton
import proofs.«174393_j79207786873536_2_alg».proof.Proof.Spec
import proofs.«174393_j79207786873536_2_alg».proof.Proof.LibColumns
import proofs.«174393_j79207786873536_2_alg».proof.Proof.LibDotCols
import proofs.«174393_j79207786873536_2_alg».proof.Proof.LibMaskBits
import Idealize.ShloMosaic.Lib.ValueLayout

noncomputable section

open scoped BigOperators

namespace Cert.KernelIdeal.LossValue

open Idealize.ShloMosaic Idealize.ShloMosaic.ValueIdx Cert.KernelIdeal Cert.KernelIdeal.Gen

open Cert.Spec

/-! ## Reductions along one axis, read at an index -/

/-- The index a reduction along the columns inserts: row `p`, column `k`. -/
theorem lift_row {n : ℕ} (h : (⟨2, ![256, n]⟩ : Shape).Reduces [1] S256) (p : Fin 256) (k : Fin n) :
    h.lift (ix1 p) k = ix2 p k :=
  funext fun a => Fin.ext (by match a with | ⟨0, _⟩ => rfl | ⟨1, _⟩ => rfl)

/-- The index a reduction of a column along its rows inserts: row `k`, the unit column. -/
theorem lift_col (h : S256x1.Reduces [0] S1) (i : Fin 1) (k : Fin 256) : h.lift (ix1 i) k = ix2 k i :=
  funext fun a => Fin.ext (by match a with | ⟨0, _⟩ => rfl | ⟨1, _⟩ => rfl)

/-- A sum along the columns of a `256 × n` array holds, at row `p`, the sum of that row. -/
theorem rowsum_apply {n : ℕ} (src : FVec Ideal ⟨2, ![256, n]⟩ .f32) (h : (⟨2, ![256, n]⟩ : Shape).Reduces [1] S256)
    (hφ : FKind.Formats .f32) (hacc : (0x00000000#32 : BitVec 32) = FKind.add.neutral .f32 hφ) (p : Fin 256) :
    multiReduction .add [1] S256 src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_row h p k)

/-- A sum along the rows of a `256 × 1` column holds the sum of the column. -/
theorem colsum_apply (src : FVec Ideal S256x1 .f32) (h : S256x1.Reduces [0] S1)
    (hφ : FKind.Formats .f32) (hacc : (0x00000000#32 : BitVec 32) = FKind.add.neutral .f32 hφ) (i : Fin 1) :
    multiReduction .add [0] S1 src 0x00000000#32 h hφ hacc (ix1 i) = ∑ k : Fin 256, src (ix2 k i) := by
  refine (Ideal.multiReduction_add_single src 0x00000000#32 h hφ hacc (ix1 i)).trans ?_
  exact Finset.sum_congr rfl fun k _ => congrArg src (lift_col h i k)

/-- The two-stage sum of a `256 × 256` array — along the columns into a column, then along the rows into one entry —
    is the double sum over rows and columns. -/
theorem twostage_apply (M : FVec Ideal S256x256 .f32) (h1 : S256x256.Reduces [1] S256) (c1 : S256.ShapeCasts S256x1)
    (h2 : S256x1.Reduces [0] S1) (c2 : S1.ShapeCasts S1x1)
    (hφ : FKind.Formats .f32) (hacc : (0x00000000#32 : BitVec 32) = FKind.add.neutral .f32 hφ)
    (hφ' : FKind.Formats .f32) (hacc' : (0x00000000#32 : BitVec 32) = FKind.add.neutral .f32 hφ') (j : S1x1.Idx) :
    shapeCast S1x1 (multiReduction .add [0] S1 (shapeCast S256x1 (multiReduction .add [1] S256 M 0x00000000#32 h1 hφ hacc) c1)
        0x00000000#32 h2 hφ' hacc') c2 j = ∑ p : Fin 256, ∑ q : Fin 256, M (ix2 p q) := by
  obtain ⟨a, b, rfl⟩ : ∃ (a : Fin 1) (b : Fin 1), j = ix2 a b := ⟨j 0, j 1, eq_ix2 j⟩
  refine (shapeCast_a_a1_apply _ c2 a b).trans ?_
  refine (colsum_apply _ h2 hφ' hacc' a).trans ?_
  refine Finset.sum_congr rfl fun p _ => ?_
  refine (shapeCast_a_a1_apply _ c1 p a).trans ?_
  exact rowsum_apply M h1 hφ hacc p

/-! ## The pieces of a squared-distance matrix -/

/-- The column of squared norms of the rows of `X`, whatever the unit coordinate. -/
theorem normcol_apply (X : FVec Ideal S256x128 .f32) (h : S256x128.Reduces [1] S256) (c : S256.ShapeCasts S256x1)
    (hφ : FKind.Formats .f32) (hacc : (0x00000000#32 : BitVec 32) = FKind.add.neutral .f32 hφ) (p : Fin 256) (u : Fin 1) :
    shapeCast S256x1 (multiReduction .add [1] S256 (mulf X X) 0x00000000#32 h hφ hacc) c (ix2 p u) = sqn X p := by
  refine (shapeCast_a_a1_apply _ c p u).trans ?_
  exact rowsum_apply _ h hφ hacc p

/-- The dimension numbers of the kernel's products are the plain ones: rows by columns. -/
theorem dims_plain : dot_S256x128_S128x256_S256x256_1_0_0_1_n_n = DotDims.plain 256 128 256 := rfl

/-- The product of `X` with the transpose of `Y`, into the zero array, holds at `(p, q)` the inner product of row `p`
    of `X` with row `q` of `Y`. -/
theorem cross_apply (X Y : FVec Ideal S256x128 .f32) (h : S256x128.Transposes [1, 0] S128x256) (p q : Fin 256) :
    matmul (F := Ideal) dot_S256x128_S128x256_S256x256_1_0_0_1_n_n none X (transpose S128x256 [1, 0] Y h)
        (constant S256x256 .f32 0x00000000#32) (ix2 p q) = dot X Y p q := by
  refine (Cert.Lib.DotCols.matmul_cols_apply _ dims_plain none X _ p q).trans ?_
  exact Finset.sum_congr rfl fun k _ => congrArg (X (ix2 p k) * ·) (transpose_ix2_apply Y h k q)

/-- A column of row norms of `X` spread over the columns, plus a column of row norms of `Y` laid as a row and spread
    over the rows: at `(p, q)` the norm of row `p` of `X` plus the norm of row `q` of `Y`. -/
theorem normsum_apply (X Y : FVec Ideal S256x128 .f32) (nx ny : FVec Ideal S256x1 .f32)
    (hx : ∀ (p : Fin 256) (u : Fin 1), nx (ix2 p u) = sqn X p) (hy : ∀ (q : Fin 256) (u : Fin 1), ny (ix2 q u) = sqn Y q)
    (h1 : S256x1.Broadcasts S256x256) (h2 : S256x1.Transposes [1, 0] S1x256) (h3 : S1x256.Broadcasts S256x256)
    (p q : Fin 256) :
    addf (broadcastTo S256x256 nx h1) (broadcastTo S256x256 (transpose S1x256 [1, 0] ny h2) h3) (ix2 p q)
      = sqn X p + sqn Y q := by
  rw [addf_apply, broadcastTo_a1_ab_apply, broadcastTo_1b_ab_apply, transpose_ix2_apply, hx, hy]

/-- The clamped expansion: from the matrix of norm sums, the matrix of inner products and the matrix of twos, the
    squared distance of row `p` of `X` and row `q` of `Y`. -/
theorem sqd_of (X Y : FVec Ideal S256x128 .f32) (s c two : FVec Ideal S256x256 .f32)
    (hs : ∀ p q : Fin 256, s (ix2 p q) = sqn X p + sqn Y q) (hc : ∀ p q : Fin 256, c (ix2 p q) = dot X Y p q)
    (htwo : ∀ p q : Fin 256, two (ix2 p q) = Ideal.ofBits .f32 0x40000000#32) (p q : Fin 256) :
    maximumf (subf s (mulf two c)) (broadcast S256x256 (Scalar.ofBits .f32 0x00000000#32)) (ix2 p q) = sqd X Y p q := by
  show max (s (ix2 p q) - two (ix2 p q) * c (ix2 p q)) (Ideal.ofBits .f32 0x00000000#32) = _
  rw [hs, hc, htwo, Ideal.ofBits_zero_f32]
  rfl

/-- One pair's separation term from its squared distance. -/
theorem hinge_apply (D : FVec Ideal S256x256 .f32) (i : S256x256.Idx) :
    mulf
      (maximumf (subf (broadcast S256x256 (Scalar.ofBits .f32 0x41200000#32))
          (sqrt (addf D (broadcast S256x256 (Scalar.ofBits .f32 0x2B8CBCCC#32)))))
        (broadcast S256x256 (Scalar.ofBits .f32 0x00000000#32)))
      (maximumf (subf (broadcast S256x256 (Scalar.ofBits .f32 0x41200000#32))
          (sqrt (addf D (broadcast S256x256 (Scalar.ofBits .f32 0x2B8CBCCC#32)))))
        (broadcast S256x256 (Scalar.ofBits .f32 0x00000000#32))) i = hinge (D i) := by
  show max (Ideal.ofBits .f32 0x41200000#32 - Ideal.sqrt (D i + Ideal.ofBits .f32 0x2B8CBCCC#32)) (Ideal.ofBits .f32 0x00000000#32)
      * max (Ideal.ofBits .f32 0x41200000#32 - Ideal.sqrt (D i + Ideal.ofBits .f32 0x2B8CBCCC#32)) (Ideal.ofBits .f32 0x00000000#32) = _
  rw [Ideal.ofBits_zero_f32]
  rfl

/-! ## The mask of the pairs above the diagonal -/

/-- Keeping an entry where the column number exceeds the row number, compared as signed 32-bit words, is keeping it
    where `p < q`. -/
theorem mask_apply (A B : FVec Ideal S256x256 .f32) (h0 : S256x256.Iotas .tc 32 [0]) (h1 : S256x256.Iotas .tc 32 [1])
    (p q : Fin 256) :
    select (cmpi .sgt (iota .tc S256x256 32 [1] h1) (iota .tc S256x256 32 [0] h0)) A B (ix2 p q)
      = if p.val < q.val then A (ix2 p q) else B (ix2 p q) := by
  rw [select_apply]
  refine MaskBits.select_of_iff ?_ _ _
  show IntOp.cmpi .sgt (iota .tc S256x256 32 [1] h1 (ix2 p q)) (iota .tc S256x256 32 [0] h0 (ix2 p q)) = 1#1 ↔ _
  rw [iota_single_apply, iota_single_apply, IntOp.cmpi_sgt]
  show (BitVec.ofNat 32 p.val).toInt < (BitVec.ofNat 32 q.val).toInt ↔ _
  rw [MaskBits.toInt_ofNat_small p.val (by have := p.isLt; omega), MaskBits.toInt_ofNat_small q.val (by have := q.isLt; omega)]
  exact Int.ofNat_lt

/-! ## A clustering term -/

/-- The masked squared-distance matrix of `X` with itself, summed in two stages and divided by the word of 32640, is the
    clustering term of `X`. -/
theorem clu_of (X : FVec Ideal S256x128 .f32) (s c two : FVec Ideal S256x256 .f32)
    (hs : ∀ p q : Fin 256, s (ix2 p q) = sqn X p + sqn X q) (hc : ∀ p q : Fin 256, c (ix2 p q) = dot X X p q)
    (htwo : ∀ p q : Fin 256, two (ix2 p q) = Ideal.ofBits .f32 0x40000000#32)
    (i0 : S256x256.Iotas .tc 32 [0]) (i1 : S256x256.Iotas .tc 32 [1])
    (h1 : S256x256.Reduces [1] S256) (c1 : S256.ShapeCasts S256x1) (h2 : S256x1.Reduces [0] S1) (c2 : S1.ShapeCasts S1x1)
    (hφ : FKind.Formats .f32) (hacc : (0x00000000#32 : BitVec 32) = FKind.add.neutral .f32 hφ)
    (hφ' : FKind.Formats .f32) (hacc' : (0x00000000#32 : BitVec 32) = FKind.add.neutral .f32 hφ') (j : S1x1.Idx) :
    divf
      (shapeCast S1x1 (multiReduction .add [0] S1 (shapeCast S256x1 (multiReduction .add [1] S256
        (select (cmpi .sgt (iota .tc S256x256 32 [1] i1) (iota .tc S256x256 32 [0] i0))
          (maximumf (subf s (mulf two c)) (broadcast S256x256 (Scalar.ofBits .f32 0x00000000#32)))
          (broadcast S256x256 (Scalar.ofBits .f32 0x00000000#32)))
        0x00000000#32 h1 hφ hacc) c1) 0x00000000#32 h2 hφ' hacc') c2)
      (broadcast S1x1 (Scalar.ofBits .f32 0x46FF0000#32)) j = clu X := by
  rw [divf_apply]
  unfold clu
  refine congrArg (Ideal.div · (Ideal.ofBits .f32 0x46FF0000#32)) ?_
  refine (twostage_apply _ h1 c1 h2 c2 hφ hacc hφ' hacc' j).trans ?_
  refine Finset.sum_congr rfl fun p _ => Finset.sum_congr rfl fun q _ => ?_
  refine (mask_apply _ _ i0 i1 p q).trans ?_
  exact ite_congr rfl (fun _ => sqd_of X X s c two hs hc htwo p q) (fun _ => Ideal.ofBits_zero_f32)

/-! ## The kernel's values -/

/-- A cast to the same shape changes nothing: the two input blocks as the kernel reads them. -/
theorem pay1_eq (X : FVec Ideal S256x128 .f32) : k1_pay1 (F := Ideal) X = X := shapeCast_self X _
theorem pay2_eq (X : FVec Ideal S256x128 .f32) : k1_pay2 (F := Ideal) X = X := shapeCast_self X _

/-- The two norm columns. -/
theorem pay3_apply (X : FVec Ideal S256x128 .f32) (p : Fin 256) (u : Fin 1) : k1_pay3 (F := Ideal) X (ix2 p u) = sqn X p := by
  unfold k1_pay3
  rw [pay1_eq]
  exact normcol_apply X _ _ _ _ p u
theorem pay4_apply (X : FVec Ideal S256x128 .f32) (p : Fin 256) (u : Fin 1) : k1_pay4 (F := Ideal) X (ix2 p u) = sqn X p := by
  unfold k1_pay4
  rw [pay2_eq]
  exact normcol_apply X _ _ _ _ p u

/-- The first array's inner products with itself, its norm sums with itself, and the matrix of twos. -/
theorem pay6_apply (X : FVec Ideal S256x128 .f32) (p q : Fin 256) : k1_pay6 (F := Ideal) X (ix2 p q) = dot X X p q := by
  unfold k1_pay6
  rw [pay1_eq]
  exact cross_apply X X _ p q
theorem pay7_apply (X : FVec Ideal S256x128 .f32) (p q : Fin 256) :
    k1_pay7 (F := Ideal) X (ix2 p q) = sqn X p + sqn X q := by
  unfold k1_pay7
  exact normsum_apply X X _ _ (pay3_apply X) (pay3_apply X) _ _ _ p q
theorem pay8_apply (p q : Fin 256) : k1_pay8 (F := Ideal) (ix2 p q) = Ideal.ofBits .f32 0x40000000#32 := rfl

/-- The separation term. -/
theorem pay5_apply (E V : FVec Ideal S256x128 .f32) (j : S1x1.Idx) : k1_pay5 (F := Ideal) E V j = sep E V := by
  unfold k1_pay5
  rw [pay1_eq, pay2_eq, divf_apply]
  unfold sep
  refine congrArg (Ideal.div · (Ideal.ofBits .f32 0x47800000#32)) ?_
  refine (twostage_apply _ _ _ _ _ _ _ _ _ j).trans ?_
  refine Finset.sum_congr rfl fun p _ => Finset.sum_congr rfl fun q _ => ?_
  refine (hinge_apply _ (ix2 p q)).trans (congrArg hinge ?_)
  exact sqd_of E V _ _ _ (normsum_apply E V _ _ (pay3_apply E) (pay4_apply V) _ _ _) (cross_apply E V _) (fun _ _ => rfl) p q

/-- The last value of the kernel from the values it is handed: the loss. -/
theorem pay9_apply (E V : FVec Ideal S256x128 .f32) (v9 : FVec Ideal S256x1 .f32) (v34 : FVec Ideal S1x1 .f32)
    (v36 v40 v41 : FVec Ideal S256x256 .f32)
    (h9 : ∀ (q : Fin 256) (u : Fin 1), v9 (ix2 q u) = sqn V q) (h34 : ∀ j, v34 j = sep E V)
    (h36 : ∀ p q : Fin 256, v36 (ix2 p q) = dot E E p q) (h40 : ∀ p q : Fin 256, v40 (ix2 p q) = sqn E p + sqn E q)
    (h41 : ∀ p q : Fin 256, v41 (ix2 p q) = Ideal.ofBits .f32 0x40000000#32) (j : S1x1.Idx) :
    k1_pay9 (F := Ideal) V v9 v34 v36 v40 v41 j = total E V := by
  unfold k1_pay9 total
  rw [addf_apply, addf_apply, mulf_apply, mulf_apply, mulf_apply, h34 j]
  refine congrArg₂ (· + ·) (congrArg₂ (· + ·) rfl (congrArg (Ideal.ofBits .f32 0x3E99999A#32 * ·) ?_))
    (congrArg (Ideal.ofBits .f32 0x3E99999A#32 * ·) ?_)
  · exact clu_of E v40 v36 v41 h40 h36 h41 _ _ _ _ _ _ _ _ _ _ j
  · exact clu_of V _ _ _ (normsum_apply V V v9 v9 h9 h9 _ _ _) (cross_apply V V _) (fun _ _ => rfl) _ _ _ _ _ _ _ _ _ _ j

/-- THE STORED VALUE IS THE LOSS: for any two input blocks, what the second kernel stores is the specification's total. -/
theorem loss_payload (E V : Vec Ideal S256x128 .f32) (j : S1x1.Idx) :
    k1_pay9 (k1_pay2 V) (k1_pay4 V) (k1_pay5 E V) (k1_pay6 E) (k1_pay7 E) (k1_pay8 (F := Ideal)) j = total E V := by
  rw [pay2_eq]
  exact pay9_apply E V _ _ _ _ _ (pay4_apply V) (pay5_apply E V) (pay6_apply E) (pay7_apply E) pay8_apply j

end Cert.KernelIdeal.LossValue

end
-- ==== Proof.LossArray.lean ====
/-
  The loss region's output array, and the program's result.

  The loss region has one grid point: its two input windows hold the two whole centroid arrays and its output window the
  whole 1 × 1 result.  What it stores is the loss of its two input blocks, so after the region the 1 × 1 array holds, at its
  one entry, the loss of the two centroid arrays as the region found them.  The program then reshapes the 1 × 1 array to a
  scalar, which keeps the entry.
-/
import proofs.«174393_j79207786873536_2_alg».proof.Proof.Gen.KernelIdeal.Frame
import proofs.«174393_j79207786873536_2_alg».proof.Proof.LossPayload
import Idealize.ShloMosaic.Lib.Pipeline.Value

set_option maxRecDepth 16384

noncomputable section

namespace Cert.KernelIdeal.LossArray

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

theorem origin2 : (![0, 0] : Fin 2 → Nat) = fun _ => 0 := funext fun a => by fin_cases a <;> rfl

variable (V : (c : Dev nD) → (b : Ref sig .tc) → Buf (Elt Ideal) ((c : Thread nD τ).loc b))

/-- The printed index maps at the one point: block 0 on every axis of every window. -/
theorem block_index : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- The first input window's block is the whole first centroid array as the region finds it. -/
theorem block0_eq (c : Dev nD) (t : Fin cfg1.N) : iblk1 V c 0 t = V c main_v0_0 := by
  obtain ⟨e00, e01, -, -, -, -⟩ := block_index t
  funext y
  show V c main_v0_0 (((cfg1.win 0).blk t).view.emb y) = V c main_v0_0 y
  refine congrArg (V c main_v0_0) (funext fun a => Fin.ext ?_)
  match a with
  | ⟨0, _⟩ => show win1_0.index t (0 : Fin 2) * 256 + 1 * (y 0).val = (y 0).val; omega
  | ⟨1, _⟩ => show win1_0.index t (1 : Fin 2) * 128 + 1 * (y 1).val = (y 1).val; omega

/-- The second input window's block is the whole second centroid array as the region finds it. -/
theorem block1_eq (c : Dev nD) (t : Fin cfg1.N) : iblk1 V c 1 t = V c main_v0_1 := by
  obtain ⟨-, -, e10, e11, -, -⟩ := block_index t
  funext y
  show V c main_v0_1 (((cfg1.win 1).blk t).view.emb y) = V c main_v0_1 y
  refine congrArg (V c main_v0_1) (funext fun a => Fin.ext ?_)
  match a with
  | ⟨0, _⟩ => show win1_1.index t (0 : Fin 2) * 256 + 1 * (y 0).val = (y 0).val; omega
  | ⟨1, _⟩ => show win1_1.index t (1 : Fin 2) * 128 + 1 * (y 1).val = (y 1).val; omega

/-- The 1 × 1 array holding the loss of the two centroid arrays as the region finds them. -/
def lossArr (c : Dev nD) : S1x1.Idx → EReal := fun _ => Cert.Spec.total (V c main_v0_0) (V c main_v0_1)

/-- WHAT THE POINT WRITES BACK is the block of that array. -/
theorem flushed_eq (c : Dev nD) (t : Fin cfg1.N) :
    (dat1 V c).flushed 2 t = ((cfg1.win 2).blk t).view.read (Elt Ideal) (lossArr V c) := by
  show (cfg1.win 2).cut (grid1.coords t) ((dat1 V c).after 2 t) = _
  rw [after1_2]
  unfold out1_2
  rw [View.canon_unit_zero origin2]
  simp only [View.ld_unit_zero (S := S256x128) origin2]
  funext j
  show k1_pay9 (F := Ideal) (k1_pay2 (iblk1 V c 1 t)) (k1_pay4 (iblk1 V c 1 t)) (k1_pay5 (iblk1 V c 0 t) (iblk1 V c 1 t))
      (k1_pay6 (iblk1 V c 0 t)) (k1_pay7 (iblk1 V c 0 t)) (k1_pay8 (F := Ideal)) j
    = Cert.Spec.total (V c main_v0_0) (V c main_v0_1)
  refine (LossValue.loss_payload (iblk1 V c 0 t) (iblk1 V c 1 t) j).trans ?_
  exact congrArg₂ Cert.Spec.total (block0_eq V c t) (block1_eq V c t)

/-- The one entry is in the one point's block. -/
theorem cover (i : S1x1.Idx) : ∃ t : Fin cfg1.N, (cfg1.win 2).flush t = true ∧ i ∈ ((cfg1.win 2).blk t).view.set := by
  have hi0 : (i 0).val < 1 := (i 0).isLt
  have hi1 : (i 1).val < 1 := (i 1).isLt
  obtain ⟨-, -, -, -, e20, e21⟩ := block_index t1_0
  refine ⟨t1_0, flush1_2 t1_0, ?_⟩
  show i ∈ ((View.whole main_v1).slice (win1_2.rect t1_0)).set
  rw [View.set_slice_whole, Rect.mem_set_unit]
  intro a
  match a with
  | ⟨0, _⟩ => show win1_2.index t1_0 (0 : Fin 2) * 1 ≤ (i 0).val ∧ (i 0).val < win1_2.index t1_0 (0 : Fin 2) * 1 + 1; omega
  | ⟨1, _⟩ => show win1_2.index t1_0 (1 : Fin 2) * 1 ≤ (i 1).val ∧ (i 1).val < win1_2.index t1_0 (1 : Fin 2) * 1 + 1; omega

/-- THE OUTPUT ARRAY after the region: the loss of the two centroid arrays as the region found them, at its one entry. -/
theorem final (c : Dev nD) : (dat1 V c).arrAt 2 cfg1.N = lossArr V c :=
  (dat1 V c).arrAt_eq_of_cover 2 _ (fun t _ => flushed_eq V c t) cover

end Cert.KernelIdeal.LossArray

end
-- ==== Proof.KernelValue.lean ====
/-
  The idealized kernel program's result as a function of its two arguments.

  Read backwards from the result buffer: the reshape keeps the one entry of the loss region's 1 × 1 output; that entry is the
  loss of the two arrays the loss region found in its input windows; those are the centroid region's two outputs, the
  centroid arrays of what that region found in ITS input windows; and those are the two arguments as launched, since
  nothing runs before the centroid region.  So the result is the loss of the centroid arrays of the two arguments.
-/
import proofs.«174393_j79207786873536_2_alg».proof.Proof.KernelRun
import proofs.«174393_j79207786873536_2_alg».proof.Proof.CentroidArrays
import proofs.«174393_j79207786873536_2_alg».proof.Proof.LossArray
import Idealize.ShloMosaic.Lib.StableHlo.Run

set_option maxRecDepth 16384

noncomputable section

namespace Cert.KernelIdeal.KernelValue

open Cert.KernelIdeal Cert.KernelIdeal.Gen
open Idealize.ShloMosaic Idealize.ShloMosaic.TcCoe Idealize.ShloMosaic.Tactic Idealize.ShloMosaic.ValueIdx Idealize.SL.Sem
open Idealize.ShloMosaic.StableHlo

variable (m : (ℓ : Loc nD τ sig) → Buf (Elt Ideal) ℓ) (ρ : Dev nD → PrngReg)

/-- The loss region finds, in its first input window, the centroid array of the first argument. -/
theorem entry0 (c : Dev nD) : V1 m ρ c main_v0_0 = Cert.Spec.cen (m ((c.tc : Thread nD τ).loc main_arg0)) :=
  (W1_arr m ρ c 2).trans (CentroidArrays.final2 (V0 m ρ) c)

/-- The loss region finds, in its second input window, the centroid array of the second argument. -/
theorem entry1 (c : Dev nD) : V1 m ρ c main_v0_1 = Cert.Spec.cen (m ((c.tc : Thread nD τ).loc main_arg1)) :=
  (W1_arr m ρ c 3).trans (CentroidArrays.final3 (V0 m ρ) c)

/-- The loss of the centroid arrays of the two arguments, as the scalar result's contents. -/
def result (c : Dev nD) : S_.Idx → EReal := fun _ =>
  Cert.Spec.total (Cert.Spec.cen (m ((c.tc : Thread nD τ).loc main_arg0))) (Cert.Spec.cen (m ((c.tc : Thread nD τ).loc main_arg1)))

/-- THE RESULT BUFFER after the last host operation holds that loss. -/
theorem result_eq (c : Dev nD) : W3 m ρ c (Proc.devRef .tc main_v2) = result m c := by
  show StableHlo.after hostOps2 (W2 m ρ c) (Proc.devRef .tc main_v2) = _
  after_results
  funext i
  show shapeCast S_ (W2 m ρ c (Proc.devRef .tc main_v1)) shapeCasts_S1x1_S_ i = _
  have h1 : ((S_ : Shape).rowMajor i).val = 0 := Nat.lt_one_iff.mp ((S_ : Shape).rowMajor i).isLt
  have hk : ((S1x1 : Shape).rowMajor (ix2 (0 : Fin 1) (0 : Fin 1))).val = ((S_ : Shape).rowMajor i).val := by
    rw [h1, Shape.rowMajor_val_two]; rfl
  refine (shapeCast_apply _ shapeCasts_S1x1_S_ i (ix2 (0 : Fin 1) (0 : Fin 1)) hk).trans ?_
  have e : W2 m ρ c (Proc.devRef .tc main_v1) = LossArray.lossArr (V1 m ρ) c :=
    (W2_arr m ρ c 2).trans (LossArray.final (V1 m ρ) c)
  rw [e]
  show Cert.Spec.total (V1 m ρ c main_v0_0) (V1 m ρ c main_v0_1) = _
  rw [entry0, entry1]
  rfl

/-- THE KERNEL PROGRAM'S RUN: every weakly fair execution terminates, nothing faulting, with the result at the loss of the
    centroid arrays of the two arguments, and the arguments as launched. -/
theorem run : θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (RunValue.run_named m ρ)

end Cert.KernelIdeal.KernelValue

end
-- ==== Proof.RefCen.lean ====
/-
  The reference's two centroid stages are the centroid arrays of its two arguments.

  Each stage sums its argument over the 2048 tokens, starting from the zero word (which is 0), and divides the sum by the
  word of 2048; read at batch p and feature q that is the centroid of the specification.
-/
import proofs.«174393_j79207786873536_2_alg».proof.Proof.Gen.ReferenceIdeal.Read
import proofs.«174393_j79207786873536_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's first centroid stage, read at batch `p` and feature `q`: the zero word plus the sum over the tokens,
    divided by the word of 2048. -/
theorem v2_apply (x0 : (⟨S256x2048x128, .f32⟩ : BufTy).Contents (Elt Ideal)) (p : Fin 256) (q : Fin 128) :
    val_main_v2 (F := Ideal) x0 (ix2 p q) = Cert.Spec.cenAt x0 p q := by
  rw [val_main_v2_apply, val_main_v0_apply, val_main_v1_apply, val_main_cst_apply, val_main_cst_0_apply]
  simp only [Ideal.ofBits_def, Ideal.hostDivf_def, Ideal.ofBits_zero_f32, zero_add]
  unfold Cert.Spec.cenAt
  refine congrArg (fun t => Ideal.div t _) (Finset.sum_congr rfl fun s _ => congrArg x0 ?_)
  exact funext fun a => Fin.ext (by match a with | ⟨0, _⟩ => rfl | ⟨1, _⟩ => rfl | ⟨2, _⟩ => rfl)

/-- The first centroid stage is the centroid array of the first argument. -/
theorem v2_eq (x0 : (⟨S256x2048x128, .f32⟩ : BufTy).Contents (Elt Ideal)) :
    val_main_v2 (F := Ideal) x0 = Cert.Spec.cen x0 := by
  funext i
  obtain ⟨p, q, rfl⟩ : ∃ (p : Fin 256) (q : Fin 128), i = ix2 p q := ⟨i 0, i 1, eq_ix2 i⟩
  rw [v2_apply, Cert.Spec.cen_apply]

/-- The second centroid stage at batch `p` and feature `q`. -/
theorem v5_apply (x1 : (⟨S256x2048x128, .f32⟩ : BufTy).Contents (Elt Ideal)) (p : Fin 256) (q : Fin 128) :
    val_main_v5 (F := Ideal) x1 (ix2 p q) = Cert.Spec.cenAt x1 p q := by
  rw [val_main_v5_apply, val_main_v3_apply, val_main_v4_apply, val_main_cst_1_apply, val_main_cst_2_apply]
  simp only [Ideal.ofBits_def, Ideal.hostDivf_def, Ideal.ofBits_zero_f32, zero_add]
  unfold Cert.Spec.cenAt
  refine congrArg (fun t => Ideal.div t _) (Finset.sum_congr rfl fun s _ => congrArg x1 ?_)
  exact funext fun a => Fin.ext (by match a with | ⟨0, _⟩ => rfl | ⟨1, _⟩ => rfl | ⟨2, _⟩ => rfl)

/-- The second centroid stage is the centroid array of the second argument. -/
theorem v5_eq (x1 : (⟨S256x2048x128, .f32⟩ : BufTy).Contents (Elt Ideal)) :
    val_main_v5 (F := Ideal) x1 = Cert.Spec.cen x1 := by
  funext i
  obtain ⟨p, q, rfl⟩ : ∃ (p : Fin 256) (q : Fin 128), i = ix2 p q := ⟨i 0, i 1, eq_ix2 i⟩
  rw [v5_apply, Cert.Spec.cen_apply]

end Cert.ReferenceIdeal.RefValue

end
-- ==== Proof.RefSqd.lean ====
/-
  The reference's three clamped squared-distance arrays are the specification's squared distances of its centroid stages.

  Each array is built the same way from a left and a right centroid array: the rows' squared norms (the zero word plus the sum
  of the squares along a row), the left norms spread along the columns and the right ones along the rows, their sum less the
  product of the doubled left array with the transposed right array, and the maximum with the zero word. The product at
  (p, q) is the sum over the features of (2 · left(p, k)) · right(q, k), which is twice the inner product of the two rows; so
  the array at (p, q) is  max (|left p|² + |right q|² - 2 (left p · right q)) 0.  The centroid stages are left as they are.
-/
import proofs.«174393_j79207786873536_2_alg».proof.Proof.Gen.ReferenceIdeal.Read
import proofs.«174393_j79207786873536_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-! ### The squared distances of the first centroids from the second -/

/-- The left rows' squared norms: the zero word plus the sum of the squares along the row. -/
theorem v7_ix (x0 : (⟨S256x2048x128, .f32⟩ : BufTy).Contents (Elt Ideal)) (p : Fin 256) :
    val_main_v7 (F := Ideal) x0 (ix1 p) = Cert.Spec.sqn (val_main_v2 (F := Ideal) x0) p := by
  rw [val_main_v7_apply, val_main_cst_3_apply]
  simp only [Ideal.ofBits_def, Ideal.ofBits_zero_f32, zero_add]
  unfold Cert.Spec.sqn
  refine Finset.sum_congr rfl fun k _ => ?_
  have e : idx_main_v7 (ix1 p) k = ix2 p k :=
    funext fun a => Fin.ext (by match a with | ⟨0, _⟩ => rfl | ⟨1, _⟩ => rfl)
  rw [e, val_main_v6_apply]
  rfl

/-- The right rows' squared norms. -/
theorem v10_ix (x1 : (⟨S256x2048x128, .f32⟩ : BufTy).Contents (Elt Ideal)) (q : Fin 256) :
    val_main_v10 (F := Ideal) x1 (ix1 q) = Cert.Spec.sqn (val_main_v5 (F := Ideal) x1) q := by
  rw [val_main_v10_apply, val_main_cst_4_apply]
  simp only [Ideal.ofBits_def, Ideal.ofBits_zero_f32, zero_add]
  unfold Cert.Spec.sqn
  refine Finset.sum_congr rfl fun k _ => ?_
  have e : idx_main_v10 (ix1 q) k = ix2 q k :=
    funext fun a => Fin.ext (by match a with | ⟨0, _⟩ => rfl | ⟨1, _⟩ => rfl)
  rw [e, val_main_v9_apply]
  rfl

/-- The left norms spread along the columns. -/
theorem v12_ix (x0 : (⟨S256x2048x128, .f32⟩ : BufTy).Contents (Elt Ideal)) (p q : Fin 256) :
    val_main_v12 (F := Ideal) x0 (ix2 p q) = Cert.Spec.sqn (val_main_v2 (F := Ideal) x0) p := by
  rw [val_main_v12_apply, val_main_v8_apply]
  have e : idx_main_v8 (idx_main_v12 (ix2 p q)) = ix1 p :=
    funext fun a => Fin.ext (by match a with | ⟨0, _⟩ => rfl)
  rw [e, v7_ix]

/-- The right norms spread along the rows. -/
theorem v13_ix (x1 : (⟨S256x2048x128, .f32⟩ : BufTy).Contents (Elt Ideal)) (p q : Fin 256) :
    val_main_v13 (F := Ideal) x1 (ix2 p q) = Cert.Spec.sqn (val_main_v5 (F := Ideal) x1) q := by
  rw [val_main_v13_apply, val_main_v11_apply]
  have e : idx_main_v11 (idx_main_v13 (ix2 p q)) = ix1 q :=
    funext fun a => Fin.ext (by match a with | ⟨0, _⟩ => rfl)
  rw [e, v10_ix]

/-- The product of the doubled left array with the transposed right array is twice the inner product of the rows. -/
theorem v18_ix (x0 x1 : (⟨S256x2048x128, .f32⟩ : BufTy).Contents (Elt Ideal)) (p q : Fin 256) :
    val_main_v18 (F := Ideal) x0 x1 (ix2 p q)
      = Ideal.ofBits .f32 0x40000000#32 * Cert.Spec.dot (val_main_v2 (F := Ideal) x0) (val_main_v5 (F := Ideal) x1) p q := by
  rw [val_main_v18_apply, Cert.Spec.two_mul_dot]
  refine Finset.sum_congr rfl fun k _ => ?_
  have el : lidx_main_v18 (ix2 p q) k = ix2 p k :=
    funext fun a => Fin.ext (by match a with | ⟨0, _⟩ => rfl | ⟨1, _⟩ => rfl)
  have er : idx_main_v17 (ridx_main_v18 (ix2 p q) k) = ix2 q k :=
    funext fun a => Fin.ext (by match a with | ⟨0, _⟩ => rfl | ⟨1, _⟩ => rfl)
  rw [el, val_main_v16_apply, val_main_v15_apply, val_main_cst_5_apply, val_main_v17_apply, er]
  rfl

/-- The clamped expansion is the specification's squared distance. -/
theorem v21_ix (x0 x1 : (⟨S256x2048x128, .f32⟩ : BufTy).Contents (Elt Ideal)) (p q : Fin 256) :
    val_main_v21 (F := Ideal) x0 x1 (ix2 p q) = Cert.Spec.sqd (val_main_v2 (F := Ideal) x0) (val_main_v5 (F := Ideal) x1) p q := by
  rw [val_main_v21_apply, val_main_v19_apply, val_main_v14_apply, v12_ix, v13_ix, v18_ix,
    val_main_v20_apply, val_main_cst_6_apply]
  simp only [Ideal.ofBits_def, Ideal.addf_def, Ideal.subf_def, Ideal.maximumf_def, Ideal.ofBits_zero_f32]
  rfl

/-! ### The squared distances of the first centroids from each other -/

/-- The left rows' squared norms: the zero word plus the sum of the squares along the row. -/
theorem v33_ix (x0 : (⟨S256x2048x128, .f32⟩ : BufTy).Contents (Elt Ideal)) (p : Fin 256) :
    val_main_v33 (F := Ideal) x0 (ix1 p) = Cert.Spec.sqn (val_main_v2 (F := Ideal) x0) p := by
  rw [val_main_v33_apply, val_main_cst_12_apply]
  simp only [Ideal.ofBits_def, Ideal.ofBits_zero_f32, zero_add]
  unfold Cert.Spec.sqn
  refine Finset.sum_congr rfl fun k _ => ?_
  have e : idx_main_v33 (ix1 p) k = ix2 p k :=
    funext fun a => Fin.ext (by match a with | ⟨0, _⟩ => rfl | ⟨1, _⟩ => rfl)
  rw [e, val_main_v32_apply]
  rfl

/-- The right rows' squared norms. -/
theorem v36_ix (x0 : (⟨S256x2048x128, .f32⟩ : BufTy).Contents (Elt Ideal)) (q : Fin 256) :
    val_main_v36 (F := Ideal) x0 (ix1 q) = Cert.Spec.sqn (val_main_v2 (F := Ideal) x0) q := by
  rw [val_main_v36_apply, val_main_cst_13_apply]
  simp only [Ideal.ofBits_def, Ideal.ofBits_zero_f32, zero_add]
  unfold Cert.Spec.sqn
  refine Finset.sum_congr rfl fun k _ => ?_
  have e : idx_main_v36 (ix1 q) k = ix2 q k :=
    funext fun a => Fin.ext (by match a with | ⟨0, _⟩ => rfl | ⟨1, _⟩ => rfl)
  rw [e, val_main_v35_apply]
  rfl

/-- The left norms spread along the columns. -/
theorem v38_ix (x0 : (⟨S256x2048x128, .f32⟩ : BufTy).Contents (Elt Ideal)) (p q : Fin 256) :
    val_main_v38 (F := Ideal) x0 (ix2 p q) = Cert.Spec.sqn (val_main_v2 (F := Ideal) x0) p := by
  rw [val_main_v38_apply, val_main_v34_apply]
  have e : idx_main_v34 (idx_main_v38 (ix2 p q)) = ix1 p :=
    funext fun a => Fin.ext (by match a with | ⟨0, _⟩ => rfl)
  rw [e, v33_ix]

/-- The right norms spread along the rows. -/
theorem v39_ix (x0 : (⟨S256x2048x128, .f32⟩ : BufTy).Contents (Elt Ideal)) (p q : Fin 256) :
    val_main_v39 (F := Ideal) x0 (ix2 p q) = Cert.Spec.sqn (val_main_v2 (F := Ideal) x0) q := by
  rw [val_main_v39_apply, val_main_v37_apply]
  have e : idx_main_v37 (idx_main_v39 (ix2 p q)) = ix1 q :=
    funext fun a => Fin.ext (by match a with | ⟨0, _⟩ => rfl)
  rw [e, v36_ix]

/-- The product of the doubled left array with the transposed right array is twice the inner product of the rows. -/
theorem v44_ix (x0 : (⟨S256x2048x128, .f32⟩ : BufTy).Contents (Elt Ideal)) (p q : Fin 256) :
    val_main_v44 (F := Ideal) x0 (ix2 p q)
      = Ideal.ofBits .f32 0x40000000#32 * Cert.Spec.dot (val_main_v2 (F := Ideal) x0) (val_main_v2 (F := Ideal) x0) p q := by
  rw [val_main_v44_apply, Cert.Spec.two_mul_dot]
  refine Finset.sum_congr rfl fun k _ => ?_
  have el : lidx_main_v44 (ix2 p q) k = ix2 p k :=
    funext fun a => Fin.ext (by match a with | ⟨0, _⟩ => rfl | ⟨1, _⟩ => rfl)
  have er : idx_main_v43 (ridx_main_v44 (ix2 p q) k) = ix2 q k :=
    funext fun a => Fin.ext (by match a with | ⟨0, _⟩ => rfl | ⟨1, _⟩ => rfl)
  rw [el, val_main_v42_apply, val_main_v41_apply, val_main_cst_14_apply, val_main_v43_apply, er]
  rfl

/-- The clamped expansion is the specification's squared distance. -/
theorem v47_ix (x0 : (⟨S256x2048x128, .f32⟩ : BufTy).Contents (Elt Ideal)) (p q : Fin 256) :
    val_main_v47 (F := Ideal) x0 (ix2 p q) = Cert.Spec.sqd (val_main_v2 (F := Ideal) x0) (val_main_v2 (F := Ideal) x0) p q := by
  rw [val_main_v47_apply, val_main_v45_apply, val_main_v40_apply, v38_ix, v39_ix, v44_ix,
    val_main_v46_apply, val_main_cst_15_apply]
  simp only [Ideal.ofBits_def, Ideal.addf_def, Ideal.subf_def, Ideal.maximumf_def, Ideal.ofBits_zero_f32]
  rfl

/-! ### The squared distances of the second centroids from each other -/

/-- The left rows' squared norms: the zero word plus the sum of the squares along the row. -/
theorem v52_ix (x1 : (⟨S256x2048x128, .f32⟩ : BufTy).Contents (Elt Ideal)) (p : Fin 256) :
    val_main_v52 (F := Ideal) x1 (ix1 p) = Cert.Spec.sqn (val_main_v5 (F := Ideal) x1) p := by
  rw [val_main_v52_apply, val_main_cst_18_apply]
  simp only [Ideal.ofBits_def, Ideal.ofBits_zero_f32, zero_add]
  unfold Cert.Spec.sqn
  refine Finset.sum_congr rfl fun k _ => ?_
  have e : idx_main_v52 (ix1 p) k = ix2 p k :=
    funext fun a => Fin.ext (by match a with | ⟨0, _⟩ => rfl | ⟨1, _⟩ => rfl)
  rw [e, val_main_v51_apply]
  rfl

/-- The right rows' squared norms. -/
theorem v55_ix (x1 : (⟨S256x2048x128, .f32⟩ : BufTy).Contents (Elt Ideal)) (q : Fin 256) :
    val_main_v55 (F := Ideal) x1 (ix1 q) = Cert.Spec.sqn (val_main_v5 (F := Ideal) x1) q := by
  rw [val_main_v55_apply, val_main_cst_19_apply]
  simp only [Ideal.ofBits_def, Ideal.ofBits_zero_f32, zero_add]
  unfold Cert.Spec.sqn
  refine Finset.sum_congr rfl fun k _ => ?_
  have e : idx_main_v55 (ix1 q) k = ix2 q k :=
    funext fun a => Fin.ext (by match a with | ⟨0, _⟩ => rfl | ⟨1, _⟩ => rfl)
  rw [e, val_main_v54_apply]
  rfl

/-- The left norms spread along the columns. -/
theorem v57_ix (x1 : (⟨S256x2048x128, .f32⟩ : BufTy).Contents (Elt Ideal)) (p q : Fin 256) :
    val_main_v57 (F := Ideal) x1 (ix2 p q) = Cert.Spec.sqn (val_main_v5 (F := Ideal) x1) p := by
  rw [val_main_v57_apply, val_main_v53_apply]
  have e : idx_main_v53 (idx_main_v57 (ix2 p q)) = ix1 p :=
    funext fun a => Fin.ext (by match a with | ⟨0, _⟩ => rfl)
  rw [e, v52_ix]

/-- The right norms spread along the rows. -/
theorem v58_ix (x1 : (⟨S256x2048x128, .f32⟩ : BufTy).Contents (Elt Ideal)) (p q : Fin 256) :
    val_main_v58 (F := Ideal) x1 (ix2 p q) = Cert.Spec.sqn (val_main_v5 (F := Ideal) x1) q := by
  rw [val_main_v58_apply, val_main_v56_apply]
  have e : idx_main_v56 (idx_main_v58 (ix2 p q)) = ix1 q :=
    funext fun a => Fin.ext (by match a with | ⟨0, _⟩ => rfl)
  rw [e, v55_ix]

/-- The product of the doubled left array with the transposed right array is twice the inner product of the rows. -/
theorem v63_ix (x1 : (⟨S256x2048x128, .f32⟩ : BufTy).Contents (Elt Ideal)) (p q : Fin 256) :
    val_main_v63 (F := Ideal) x1 (ix2 p q)
      = Ideal.ofBits .f32 0x40000000#32 * Cert.Spec.dot (val_main_v5 (F := Ideal) x1) (val_main_v5 (F := Ideal) x1) p q := by
  rw [val_main_v63_apply, Cert.Spec.two_mul_dot]
  refine Finset.sum_congr rfl fun k _ => ?_
  have el : lidx_main_v63 (ix2 p q) k = ix2 p k :=
    funext fun a => Fin.ext (by match a with | ⟨0, _⟩ => rfl | ⟨1, _⟩ => rfl)
  have er : idx_main_v62 (ridx_main_v63 (ix2 p q) k) = ix2 q k :=
    funext fun a => Fin.ext (by match a with | ⟨0, _⟩ => rfl | ⟨1, _⟩ => rfl)
  rw [el, val_main_v61_apply, val_main_v60_apply, val_main_cst_20_apply, val_main_v62_apply, er]
  rfl

/-- The clamped expansion is the specification's squared distance. -/
theorem v66_ix (x1 : (⟨S256x2048x128, .f32⟩ : BufTy).Contents (Elt Ideal)) (p q : Fin 256) :
    val_main_v66 (F := Ideal) x1 (ix2 p q) = Cert.Spec.sqd (val_main_v5 (F := Ideal) x1) (val_main_v5 (F := Ideal) x1) p q := by
  rw [val_main_v66_apply, val_main_v64_apply, val_main_v59_apply, v57_ix, v58_ix, v63_ix,
    val_main_v65_apply, val_main_cst_21_apply]
  simp only [Ideal.ofBits_def, Ideal.addf_def, Ideal.subf_def, Ideal.maximumf_def, Ideal.ofBits_zero_f32]
  rfl

end Cert.ReferenceIdeal.RefValue

end
-- ==== Proof.RefTerms.lean ====
/-
  The reference's separation term and its two clustering terms are the specification's, of the centroid stages.

  Separation: each pair's squared distance plus the small word, its root taken from the margin word, the maximum with the
  zero word, squared; the sum over the whole 256 × 256 array (read as the double sum over rows and columns) from the zero
  word, divided by the word of 65536.
  Clustering: the squared distances of an array from itself pass a mask computed on 32-bit words — the row number plus the
  zero word compared signed, "greater or equal", with the column number; where that holds the zero word is selected, elsewhere
  the squared distance. Row and column numbers are below 256, so the comparison's bit is 1 exactly when the column is not
  above the row, and the masked array keeps the squared distance exactly where the column is above the row. Its sum over
  the whole array, from the zero word, is divided by the word of 32640.
-/
import proofs.«174393_j79207786873536_2_alg».proof.Proof.RefSqd
import proofs.«174393_j79207786873536_2_alg».proof.Proof.LibMaskBits

noncomputable section

open scoped BigOperators

namespace Cert.ReferenceIdeal.RefValue

open Cert.ReferenceIdeal Cert.ReferenceIdeal.Gen Cert.ReferenceIdeal.Read Idealize.ShloMosaic Idealize.ShloMosaic.ValueIdx

/-! ### The separation term -/

/-- One pair's term: the margin less the root of the squared distance plus the small word, clamped below at the zero word,
    squared. -/
theorem v29_ix (x0 x1 : (⟨S256x2048x128, .f32⟩ : BufTy).Contents (Elt Ideal)) (p q : Fin 256) :
    val_main_v29 (F := Ideal) x0 x1 (ix2 p q)
      = Cert.Spec.hinge (Cert.Spec.sqd (val_main_v2 (F := Ideal) x0) (val_main_v5 (F := Ideal) x1) p q) := by
  rw [val_main_v29_apply, val_main_v28_apply, val_main_v26_apply, val_main_v25_apply, val_main_cst_8_apply,
    val_main_v24_apply, val_main_v23_apply, v21_ix, val_main_v22_apply, val_main_cst_7_apply, val_main_v27_apply,
    val_main_cst_9_apply]
  simp only [Ideal.ofBits_def, Ideal.addf_def, Ideal.subf_def, Ideal.mulf_def, Ideal.maximumf_def,
    Ideal.hostUnary_sqrt_def, Ideal.ofBits_zero_f32]
  rfl

/-- The sum of the pairs' terms over all indices, from the zero word, divided by the word of 65536, is the specification's
    separation term. -/
theorem v31_eq (x0 x1 : (⟨S256x2048x128, .f32⟩ : BufTy).Contents (Elt Ideal)) (i : S_.Idx) :
    val_main_v31 (F := Ideal) x0 x1 i
      = Cert.Spec.sep (val_main_v2 (F := Ideal) x0) (val_main_v5 (F := Ideal) x1) := by
  rw [val_main_v31_apply, val_main_v30_apply, val_main_cst_10_apply, val_main_cst_11_apply,
    sum_idx2 (val_main_v29 (F := Ideal) x0 x1)]
  simp only [Ideal.ofBits_def, Ideal.hostDivf_def, Ideal.ofBits_zero_f32, zero_add]
  unfold Cert.Spec.sep
  exact congrArg (fun t => Ideal.div t _)
    (Finset.sum_congr rfl fun p _ => Finset.sum_congr rfl fun q _ => v29_ix x0 x1 p q)

/-! ### The clustering term of the first centroids -/

/-- The mask's bit at row `p` and column `q`: the row number plus the zero word, compared signed with the column number,
    says 1 exactly when the column is not above the row. -/
theorem mask0_bit (p q : Fin 256) : val_main_call0_v4 (F := Ideal) (ix2 p q) = 1#1 ↔ q.val ≤ p.val := by
  rw [val_main_call0_v4_apply, val_main_call0_v2_apply, val_main_call0_v0_apply, val_main_call0_v1_apply,
    val_main_call0_c_apply, val_main_call0_v3_apply, MaskBits.addi_zero]
  exact MaskBits.sge_ofNat_iff p.val q.val (by have := p.isLt; omega) (by have := q.isLt; omega)

/-- The masked array keeps the squared distance where the column is above the row and is 0 elsewhere. -/
theorem v48_ix (x0 : (⟨S256x2048x128, .f32⟩ : BufTy).Contents (Elt Ideal)) (p q : Fin 256) :
    val_main_v48 (F := Ideal) x0 (ix2 p q)
      = if p.val < q.val then Cert.Spec.sqd (val_main_v2 (F := Ideal) x0) (val_main_v2 (F := Ideal) x0) p q else 0 := by
  rw [val_main_v48_apply, MaskBits.select_of_iff (mask0_bit p q), val_main_call0_v5_apply,
    val_main_call0_cst_apply, v47_ix]
  simp only [Ideal.ofBits_def, Ideal.ofBits_zero_f32]
  by_cases h : q.val ≤ p.val
  · rw [if_pos h, if_neg (by omega)]
  · rw [if_neg h, if_pos (by omega)]

/-- The sum of the masked array over all its indices, from the zero word, divided by the word of 32640, is the
    specification's clustering term. -/
theorem v50_eq (x0 : (⟨S256x2048x128, .f32⟩ : BufTy).Contents (Elt Ideal)) (i : S_.Idx) :
    val_main_v50 (F := Ideal) x0 i = Cert.Spec.clu (val_main_v2 (F := Ideal) x0) := by
  rw [val_main_v50_apply, val_main_v49_apply, val_main_cst_16_apply, val_main_cst_17_apply,
    sum_idx2 (val_main_v48 (F := Ideal) x0)]
  simp only [Ideal.ofBits_def, Ideal.hostDivf_def, Ideal.ofBits_zero_f32, zero_add]
  unfold Cert.Spec.clu
  exact congrArg (fun t => Ideal.div t _)
    (Finset.sum_congr rfl fun p _ => Finset.sum_congr rfl fun q _ => v48_ix x0 p q)

/-! ### The clustering term of the second centroids -/

/-- The mask's bit at row `p` and column `q`: the row number plus the zero word, compared signed with the column number,
    says 1 exactly when the column is not above the row. -/
theorem mask1_bit (p q : Fin 256) : val_main_call1_v4 (F := Ideal) (ix2 p q) = 1#1 ↔ q.val ≤ p.val := by
  rw [val_main_call1_v4_apply, val_main_call1_v2_apply, val_main_call1_v0_apply, val_main_call1_v1_apply,
    val_main_call1_c_apply, val_main_call1_v3_apply, MaskBits.addi_zero]
  exact MaskBits.sge_ofNat_iff p.val q.val (by have := p.isLt; omega) (by have := q.isLt; omega)

/-- The masked array keeps the squared distance where the column is above the row and is 0 elsewhere. -/
theorem v67_ix (x1 : (⟨S256x2048x128, .f32⟩ : BufTy).Contents (Elt Ideal)) (p q : Fin 256) :
    val_main_v67 (F := Ideal) x1 (ix2 p q)
      = if p.val < q.val then Cert.Spec.sqd (val_main_v5 (F := Ideal) x1) (val_main_v5 (F := Ideal) x1) p q else 0 := by
  rw [val_main_v67_apply, MaskBits.select_of_iff (mask1_bit p q), val_main_call1_v5_apply,
    val_main_call1_cst_apply, v66_ix]
  simp only [Ideal.ofBits_def, Ideal.ofBits_zero_f32]
  by_cases h : q.val ≤ p.val
  · rw [if_pos h, if_neg (by omega)]
  · rw [if_neg h, if_pos (by omega)]

/-- The sum of the masked array over all its indices, from the zero word, divided by the word of 32640, is the
    specification's clustering term. -/
theorem v69_eq (x1 : (⟨S256x2048x128, .f32⟩ : BufTy).Contents (Elt Ideal)) (i : S_.Idx) :
    val_main_v69 (F := Ideal) x1 i = Cert.Spec.clu (val_main_v5 (F := Ideal) x1) := by
  rw [val_main_v69_apply, val_main_v68_apply, val_main_cst_22_apply, val_main_cst_23_apply,
    sum_idx2 (val_main_v67 (F := Ideal) x1)]
  simp only [Ideal.ofBits_def, Ideal.hostDivf_def, Ideal.ofBits_zero_f32, zero_add]
  unfold Cert.Spec.clu
  exact congrArg (fun t => Ideal.div t _)
    (Finset.sum_congr rfl fun p _ => Finset.sum_congr rfl fun q _ => v67_ix x1 p q)

end Cert.ReferenceIdeal.RefValue

end
-- ==== Proof.RefValue.lean ====
/-
  The reference is the specification: its result is the loss of the two arguments' centroid arrays.

  The last five operations weigh the three terms: the word of 3 times the separation term, plus the word of 0.3 times the
  clustering term of the first centroids, plus the word of 0.3 times that of the second. With the three terms identified
  with the specification's on the centroid stages, and the centroid stages with the centroid arrays of the two arguments, the
  result is the specification's total; it is the same at the result's one index.
-/
import proofs.«174393_j79207786873536_2_alg».proof.Proof.RefCen
import proofs.«174393_j79207786873536_2_alg».proof.Proof.RefTerms

noncomputable section

open scoped BigOperators

namespace Cert.ReferenceIdeal.RefValue

open Cert.ReferenceIdeal Cert.ReferenceIdeal.Gen Cert.ReferenceIdeal.Read Idealize.ShloMosaic Idealize.ShloMosaic.ValueIdx

/-- The weighted total on the centroid stages. -/
theorem v74_stages (x0 x1 : (⟨S256x2048x128, .f32⟩ : BufTy).Contents (Elt Ideal)) (i : S_.Idx) :
    val_main_v74 (F := Ideal) x0 x1 i
      = Cert.Spec.total (val_main_v2 (F := Ideal) x0) (val_main_v5 (F := Ideal) x1) := by
  rw [val_main_v74_apply, val_main_v72_apply, val_main_v70_apply, val_main_v71_apply, val_main_v73_apply,
    val_main_cst_24_apply, val_main_cst_25_apply, val_main_cst_26_apply, v31_eq, v50_eq, v69_eq]
  simp only [Ideal.ofBits_def, Ideal.addf_def, Ideal.mulf_def]
  rfl

/-- The reference's result is the loss of the centroid arrays of its two arguments. -/
theorem ref_total (x0 x1 : (⟨S256x2048x128, .f32⟩ : BufTy).Contents (Elt Ideal)) (i : S_.Idx) :
    Cert.ReferenceIdeal.Read.val_main_v74 (F := Ideal) x0 x1 i
      = Cert.Spec.total (Cert.Spec.cen x0) (Cert.Spec.cen x1) := by
  rw [v74_stages, v2_eq, v5_eq]

end Cert.ReferenceIdeal.RefValue

end
-- ==== Proof.lean ====
/-
  The contrastive loss of two concept arrays: a two-kernel program against its plain reference, equal over the extended reals.

  Both programs take two arrays of 256 batches × 2048 tokens × 128 features.  Each first averages every batch over its tokens
  (the centroid: the sum over the 2048 tokens divided by 2048) and then computes, from the two 256 × 128 centroid arrays, the
  loss  3 · separation + 0.3 · clustering (first) + 0.3 · clustering (second)  of the specification module: squared distances
  by the expansion |e|² + |v|² − 2 (e · v) clamped at 0, the separation the mean of  max (10 − sqrt (d + 1e-12)) 0  squared
  over all pairs, a clustering the sum of an array's own squared distances over the pairs above the diagonal divided by their
  number.

  The kernel program sums each batch in eight runs of 256 tokens, eight batches per grid point, and computes the loss in a
  second kernel on the two whole centroid arrays, doubling each inner product after it is summed, summing the pair terms
  first along the columns and then along the rows, and keeping the pairs above the diagonal by comparing column and row
  numbers; a last host operation reshapes the 1 × 1 result to a scalar.  The reference sums each batch at once, doubles the
  left factor before the inner product, sums the pair terms over both axes at once and masks with a triangular selection.
  At the extended reals these are the same function: sums regroup freely, a finite nonnegative factor moves inside a
  finite sum, and the two masks select the same pairs.  No entry needs to be finite, so the precondition is never opened.

  The three frame claims are the generated frames (the reference's is its generated run with the result dropped); the
  idealization rewrote nothing, so the preserved claim is trivial; the algebraic claim puts the kernel program's run
  and the reference's run side by side at the one loss.
-/
import proofs.«174393_j79207786873536_2_alg».proof.Defs
import proofs.«174393_j79207786873536_2_alg».proof.Proof.Gen.Kernel
import proofs.«174393_j79207786873536_2_alg».proof.Proof.Gen.Kernel.Skeleton
import proofs.«174393_j79207786873536_2_alg».proof.Proof.Gen.Kernel.Launch
import proofs.«174393_j79207786873536_2_alg».proof.Proof.Gen.Kernel.Points
import proofs.«174393_j79207786873536_2_alg».proof.Proof.Gen.Kernel.Frame
import proofs.«174393_j79207786873536_2_alg».proof.Proof.Gen.KernelIdeal
import proofs.«174393_j79207786873536_2_alg».proof.Proof.Gen.KernelIdeal.Skeleton
import proofs.«174393_j79207786873536_2_alg».proof.Proof.Gen.KernelIdeal.Launch
import proofs.«174393_j79207786873536_2_alg».proof.Proof.Gen.KernelIdeal.Points
import proofs.«174393_j79207786873536_2_alg».proof.Proof.Gen.KernelIdeal.Frame
import proofs.«174393_j79207786873536_2_alg».proof.Proof.Gen.ReferenceIdeal
import proofs.«174393_j79207786873536_2_alg».proof.Proof.Gen.Pre_finite_inputs
import proofs.«174393_j79207786873536_2_alg».proof.Proof.Gen.ReferenceIdeal.Run
import proofs.«174393_j79207786873536_2_alg».proof.Proof.Gen.ReferenceIdeal.Read
import proofs.«174393_j79207786873536_2_alg».proof.Proof.KernelValue
import proofs.«174393_j79207786873536_2_alg».proof.Proof.RefValue
import Idealize.ShloMosaic.Adequacy
import Idealize.ShloMosaic.Init

noncomputable section

namespace Cert.Proof

open Idealize.ShloMosaic Idealize.SL.Sem

/-- The two idealized programs, from memories agreeing on the arguments, both run and end at the loss of the centroid arrays
    of the arguments: the kernel program by its run read back through its two regions, the reference by its generated run and
    its stages read at an index. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v74_eq, (hagree c).1, (hagree c).2]
  funext i
  exact Cert.ReferenceIdeal.RefValue.ref_total _ _ i

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
